-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_arg10 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S200x128 : Shape := ⟨2, ![200, 128]⟩
abbrev S4000x128 : Shape := ⟨2, ![4000, 128]⟩
abbrev S8x128 : Shape := ⟨2, ![8, 128]⟩

abbrev nBuf : Space → Nat
  | .hbm => 72
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S100000x128, .bf16⟩
  | .hbm, ⟨38, _⟩ => ⟨S200x128, .f32⟩
  | .hbm, ⟨39, _⟩ => ⟨S200x128, .f32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S100000x128, .bf16⟩
  | .hbm, ⟨55, _⟩ => ⟨S200x128, .f32⟩
  | .hbm, ⟨56, _⟩ => ⟨S200x128, .f32⟩
  | .hbm, ⟨57, _⟩ => ⟨S_, .f32⟩
  | .hbm, ⟨58, _⟩ => ⟨S128, .f32⟩
  | .hbm, ⟨59, _⟩ => ⟨S1x128, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S4000x128, .bf16⟩
  | .local _ .vmem, ⟨7, _⟩ => ⟨S4000x128, .bf16⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S4000x128, .bf16⟩
  | .local _ .vmem, ⟨13, _⟩ => ⟨S4000x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4000x128, .bf16⟩
  | .local _ .vmem, ⟨21, _⟩ => ⟨S4000x128, .bf16⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S4000x128, .bf16⟩
  | .local _ .vmem, ⟨27, _⟩ => ⟨S4000x128, .bf16⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S4000x128, .f32⟩
  | .local _ .vmem, ⟨34, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc1_sem8_0 : DmaSem sig := 22
abbrev cc1_sem8_1 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  reduces_S4000x128_S128 : S4000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S200x128_S128_d0 : S200x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S200x128.size a
  hwx0_5 : ∀ i : grid0.Coords, EltTy.bits .f32 = 32 ∨ (Rect.block (s := S200x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S200x128.size a
  hwx0_6 : ∀ i : grid0.Coords, EltTy.bits .f32 = 32 ∨ (Rect.block (s := S200x128) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .bf16 = 32 ∨ (Rect.block (s := S100000x128) S4000x128.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S200x128.size a
  hwx1_8 : ∀ i : grid1.Coords, EltTy.bits .f32 = 32 ∨ (Rect.block (s := S200x128) S8x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x128.size a ≤ S200x128.size a
  hwx1_9 : ∀ i : grid1.Coords, EltTy.bits .f32 = 32 ∨ (Rect.block (s := S200x128) S8x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v34_1) S8x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v34_2) S8x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v34_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S128x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S128x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S100000x128, .f32⟩
  | .hbm, ⟨104, _⟩ => ⟨S100000x128, .f32⟩
  | .hbm, ⟨105, _⟩ => ⟨S_, .f32⟩
  | .hbm, ⟨106, _⟩ => ⟨S100000x128, .f32⟩
  | .hbm, ⟨107, _⟩ => ⟨S100000x128, .f32⟩
  | .hbm, ⟨108, _⟩ => ⟨S128x128, .f32⟩
  | .hbm, ⟨109, _⟩ => ⟨S100000x128, .f32⟩
  | .hbm, ⟨110, _⟩ => ⟨S_, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call0_cst : Ref sig .tc := ⟨.hbm, 67, rfl⟩
abbrev main_call0_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_call1_cst : Ref sig .tc := ⟨.hbm, 105, rfl⟩
abbrev main_call1_v0 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_v81 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel program's run, with the RESULT named.

  The program is three kernel regions among stretches of host operations.  Every weakly fair execution from a
  memory with zero counters terminates without a fault; at the end the result array holds what the last
  region's write-backs leave — the contents of the result buffer at the boundary after the third region — and
  every argument array is as launched.  The run is the same one the frame of this program is proved by: the
  segments' run, the last thread state read against the final state; the result buffer is one more of the
  buffers that state holds.
-/
import proofs.«113272_j71416716197907_2_alg».proof.Proof.Gen.KernelIdeal.Frame

set_option maxRecDepth 16384

noncomputable section

namespace Cert.KernelIdeal.GenValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result array ends at the last boundary's contents of its buffer and
    the eleven argument arrays end as launched. -/
theorem run_value : θ_run defs (onTc (τ := τ) (main (F := F))) ⟨m, fun _ => 0, ρ⟩ (fun r => ∀ c : Dev nD,
      r.2.mem ((c.tc : Thread nD τ).loc main_v45) = W6 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v45 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.GenValue

end
-- ==== Proof.KHostDefs.lean ====
/-
  The host operations that sit between the kernel regions, named.

  Before the first region the program transposes each weight matrix and reshapes each 128-vector into a
  1×128 row.  After the first and after the second region it finishes the batch statistics from the 200-row
  per-block arrays: the column mean is the sum of the 200 rows divided by 100000, and the variance is the
  mean of the squares (from the sums-of-squares array) minus the square of the mean.
-/
import proofs.«113272_j71416716197907_2_alg».proof.KernelIdeal
import Idealize.ShloMosaic.PureOps.Ideal

noncomputable section

namespace Cert.Gin.KH

open Idealize.ShloMosaic Cert.KernelIdeal Cert.KernelIdeal.Facts₀

variable [Cert.KernelIdeal.Facts₀]

/-- The transpose of a 128×128 matrix. -/
def tr (W : FVec Ideal S128x128 .f32) : FVec Ideal S128x128 .f32 :=
  transpose S128x128 [1, 0] W transposes_S128x128_S128x128_1_0

/-- A 128-vector as a 1×128 row. -/
def rs (b : FVec Ideal S128 .f32) : FVec Ideal S1x128 .f32 :=
  shapeCast S1x128 b shapeCasts_S128_S1x128

/-- The column mean from a 200-row array of per-block column sums: the sum of the rows over 100000. -/
def meanOf (S : FVec Ideal S200x128 .f32) : FVec Ideal S1x128 .f32 :=
  Host.divf
    (broadcastInDim S1x128 ![1] bcast_S128_S1x128_1
      (Host.reduceAdd S (constant (F := Ideal) S_ .f32 0x00000000#32) reducesTo_S200x128_S128_d0 h_S_))
    (broadcastInDim S1x128 ![] bcast_S_S1x128 (constant (F := Ideal) S_ .f32 0x47C35000#32))

/-- The one-pass variance from the per-block sums `S` and sums of squares `Q`: the mean of the squares minus the
    square of the mean. -/
def varOf (S Q : FVec Ideal S200x128 .f32) : FVec Ideal S1x128 .f32 :=
  subf (meanOf Q) (mulf (meanOf S) (meanOf S))

end Cert.Gin.KH

end
-- ==== Proof.Spec.lean ====
/-
  The mathematics of this certificate, stated once and free of either program.

  A graph-isomorphism layer on 100000 nodes with 128 features: the node features plus the
  aggregated neighbour features go through Linear → BatchNorm → ReLU twice and then through a last
  Linear → ReLU.  BatchNorm uses the batch statistics of the 100000 rows, with the biased variance.
  The two programs differ in ONE place only: the variance of a column is computed either as the
  mean of the squared deviations from the mean ("two-pass"), or as the mean of the squares minus the
  square of the mean ("one-pass").  `net` is the whole layer with the variance form as a parameter.
-/
import Idealize.ShloMosaic.PureOps.Ideal
import Idealize.ShloMosaic.Lib.ValueIdx

noncomputable section

namespace Cert.Gin

open Idealize.ShloMosaic

/-- A matrix of extended reals, by row and column. -/
abbrev Mat (a b : Nat) : Type := Fin a → Fin b → EReal
/-- A row vector of extended reals. -/
abbrev Row (b : Nat) : Type := Fin b → EReal

/-- A rank-2 array read by row and column. -/
def cur {a b : Nat} (v : (⟨2, ![a, b]⟩ : Shape).Idx → EReal) : Mat a b := fun r j => v (ValueIdx.ix2 r j)
/-- A rank-1 array read by position. -/
def row {b : Nat} (v : (⟨1, ![b]⟩ : Shape).Idx → EReal) : Row b := fun j => v (ValueIdx.ix1 j)
/-- A matrix as a rank-2 array. -/
def arr {a b : Nat} (M : Mat a b) : (⟨2, ![a, b]⟩ : Shape).Idx → EReal := fun i => M (i 0) (i 1)

/-- An extended real that is a real number (neither infinity). -/
def IsR (v : EReal) : Prop := ∃ r : ℝ, v = (r : EReal)

/-- The BatchNorm epsilon, the single-precision value nearest 1e-5. -/
def eps : EReal := Ideal.ofBits .f32 0x3727C5AC#32
/-- The number of rows, 100000, as a single-precision value (exact). -/
def cnt : EReal := Ideal.ofBits .f32 0x47C35000#32

/-- A linear layer: `H · Wᵀ + b`. -/
def lin (H : Mat 100000 128) (W : Mat 128 128) (b : Row 128) : Mat 100000 128 :=
  fun r j => (∑ k : Fin 128, H r k * W j k) + b j

/-- The mean of each column over the 100000 rows. -/
def colMean (H : Mat 100000 128) : Row 128 :=
  fun j => Ideal.div (∑ r : Fin 100000, H r j) cnt

/-- The biased variance of each column as the mean of the squared deviations from the mean. -/
def varTwoPass (H : Mat 100000 128) : Row 128 :=
  fun j => Ideal.div (∑ r : Fin 100000, (H r j - colMean H j) * (H r j - colMean H j)) cnt

/-- The biased variance of each column as the mean of the squares minus the square of the mean. -/
def varOnePass (H : Mat 100000 128) : Row 128 :=
  fun j => Ideal.div (∑ r : Fin 100000, H r j * H r j) cnt - colMean H j * colMean H j

/-- BatchNorm with given statistics followed by ReLU:
    `max ((h − μ) · (v + ε)^(-1/2) · γ + β, 0)`. -/
def bnRelu (H : Mat 100000 128) (μ v g be : Row 128) : Mat 100000 128 :=
  fun r j => max ((H r j - μ j) * Ideal.rsqrt (v j + eps) * g j + be j) 0

/-- First layer: the features plus the aggregate, through the first linear map. -/
def stage1 (x agg : Mat 100000 128) (W1 : Mat 128 128) (b1 : Row 128) : Mat 100000 128 :=
  lin (fun r j => x r j + agg r j) W1 b1

/-- Second layer: normalise the first layer's output with its own batch statistics, ReLU, linear map. -/
def stage2 (var : Mat 100000 128 → Row 128) (H1 : Mat 100000 128) (g1 be1 : Row 128) (W2 : Mat 128 128)
    (b2 : Row 128) : Mat 100000 128 :=
  lin (bnRelu H1 (colMean H1) (var H1) g1 be1) W2 b2

/-- Third layer: normalise, ReLU, linear map without bias, ReLU. -/
def stage3 (var : Mat 100000 128 → Row 128) (H2 : Mat 100000 128) (g2 be2 : Row 128) (W3 : Mat 128 128) :
    Mat 100000 128 :=
  fun r j => max (∑ k : Fin 128, bnRelu H2 (colMean H2) (var H2) g2 be2 r k * W3 j k) 0

/-- The whole layer, with the form of the variance as a parameter. -/
def net (var : Mat 100000 128 → Row 128) (x agg : Mat 100000 128) (W1 : Mat 128 128) (b1 g1 be1 : Row 128)
    (W2 : Mat 128 128) (b2 g2 be2 : Row 128) (W3 : Mat 128 128) : Mat 100000 128 :=
  stage3 var (stage2 var (stage1 x agg W1 b1) g1 be1 W2 b2) g2 be2 W3

end Cert.Gin

end
-- ==== Proof.Reals.lean ====
/-
  Extended reals that are real numbers are closed under the arithmetic the layer uses: sums, products,
  differences, finite sums, maxima, quotients by a nonzero real and the reciprocal square root of a
  positive real.  Every later module that has to know "no infinity appears here" cites these.
-/
import proofs.«113272_j71416716197907_2_alg».proof.Proof.Spec

noncomputable section

namespace Cert.Gin

open Idealize.ShloMosaic

theorem isR_coe (r : ℝ) : IsR (r : EReal) := ⟨r, rfl⟩

theorem isR_zero : IsR (0 : EReal) := ⟨0, rfl⟩

theorem isR_add {a b : EReal} (ha : IsR a) (hb : IsR b) : IsR (a + b) := by
  obtain ⟨x, rfl⟩ := ha; obtain ⟨y, rfl⟩ := hb; exact ⟨x + y, (EReal.coe_add x y).symm⟩

theorem isR_mul {a b : EReal} (ha : IsR a) (hb : IsR b) : IsR (a * b) := by
  obtain ⟨x, rfl⟩ := ha; obtain ⟨y, rfl⟩ := hb; exact ⟨x * y, (EReal.coe_mul x y).symm⟩

theorem isR_sub {a b : EReal} (ha : IsR a) (hb : IsR b) : IsR (a - b) := by
  obtain ⟨x, rfl⟩ := ha; obtain ⟨y, rfl⟩ := hb; exact ⟨x - y, (EReal.coe_sub x y).symm⟩

theorem isR_max {a b : EReal} (ha : IsR a) (hb : IsR b) : IsR (max a b) := by
  rcases max_choice a b with h | h <;> rw [h] <;> assumption

/-- A finite sum of real numbers is a real number. -/
theorem isR_finset_sum {ι : Type*} (s : Finset ι) (f : ι → EReal) (h : ∀ i ∈ s, IsR (f i)) :
    IsR (∑ i ∈ s, f i) := by
  classical
  induction s using Finset.induction_on with
  | empty => simpa using isR_zero
  | insert a s ha ih =>
    rw [Finset.sum_insert ha]
    exact isR_add (h a (Finset.mem_insert_self a s)) (ih fun i hi => h i (Finset.mem_insert_of_mem hi))

theorem isR_sum {ι : Type*} [Fintype ι] (f : ι → EReal) (h : ∀ i, IsR (f i)) : IsR (∑ i, f i) :=
  isR_finset_sum Finset.univ f fun i _ => h i

/-- The coercion from the reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real, as the ideal division computes it. -/
theorem div_coe_coe (x y : ℝ) (hy : y ≠ 0) : Ideal.div (x : EReal) (y : EReal) = ((x / y : ℝ) : EReal) := by
  rw [Ideal.div_coe hy, ← EReal.coe_mul]; congr 1; field_simp

theorem isR_div {a : EReal} (ha : IsR a) (y : ℝ) (hy : y ≠ 0) : IsR (Ideal.div a (y : EReal)) := by
  obtain ⟨x, rfl⟩ := ha; exact ⟨x / y, div_coe_coe x y hy⟩

/-- The reciprocal square root of a positive real. -/
theorem rsqrt_coe_pos (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

theorem isR_rsqrt_pos (r : ℝ) (hr : 0 < r) : IsR (Ideal.rsqrt (r : EReal)) := ⟨_, rsqrt_coe_pos r hr⟩

end Cert.Gin

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Finite.lean ====
/-
  Finiteness.  The precondition tests, for each of the ten float arguments, that every entry has absolute
  value below +∞; on the extended reals this says that every entry is a real number.  Reading an array at
  computed positions (a gather) keeps that property, and so does adding to each entry of a real array a
  finite sum of entries of another real array (an accumulating scatter).  Hence the neighbour aggregate
  of real node features is an array of real numbers.
-/
import proofs.«113272_j71416716197907_2_alg».proof.Defs
import proofs.«113272_j71416716197907_2_alg».proof.Proof.Reals
import proofs.«113272_j71416716197907_2_alg».proof.Proof.LibEReal
import Idealize.ShloMosaic.PureOps.Ideal.Laws
import Idealize.ShloMosaic.Lib.ReduceAll
import Idealize.ShloMosaic.Lib.ValueIdx

noncomputable section

namespace Cert.Gin.Fin

open Idealize.ShloMosaic Idealize.SL.Sem

/-! ## Gather, accumulating scatter and the zero array keep entries real -/

/-- Every entry of a gather is an entry of its operand. -/
theorem gather_real {s si t : Shape} {w : Nat} (d : GatherDims s si t) (x : s.Idx → EReal) (idx : IVec si w)
    (hx : ∀ i, IsR (x i)) : ∀ j, IsR (Host.gather d x idx j) :=
  fun j => hx (d.operandIdx j idx)

/-- Every entry of an accumulating scatter is an operand entry plus a finite sum of update entries. -/
theorem scatterAdd_real {s si su : Shape} {w : Nat} (d : ScatterDims s si su) (x : FVec Ideal s .f32)
    (idx : IVec si w) (upd : FVec Ideal su .f32) (hx : ∀ i, IsR (x i)) (hu : ∀ j, IsR (upd j)) :
    ∀ i, IsR (Host.scatterAdd (F := Ideal) d x idx upd i) := by
  intro i
  show IsR (Ideal.hostScatterAdd d x idx upd i)
  unfold Ideal.hostScatterAdd
  exact isR_add (hx i) (isR_finset_sum _ _ fun j _ => hu j)

/-- The array that is zero everywhere has real entries. -/
theorem splat_zero_real {s : Shape} (h : (⟨0, ![]⟩ : Shape).BroadcastsInDim s (![] : Fin 0 → Fin s.rank)) :
    ∀ i, IsR (broadcastInDim s ![] h (constant (F := Ideal) (⟨0, ![]⟩ : Shape) .f32 0x00000000#32) i) := by
  intro i
  show IsR (Ideal.ofBits .f32 0x00000000#32)
  rw [Ideal.ofBits_zero_f32]
  exact isR_zero

/-! ## The neighbour aggregate -/

section Agg

variable [Cert.KernelIdeal.Facts₀]
open Cert.KernelIdeal Cert.KernelIdeal.Facts₀

/-- The source node of each edge (row 0 of the edge list), a negative number counted from the end. -/
def srcK (ei : IVec Cert.KernelIdeal.S2x1600000 32) : IVec Cert.KernelIdeal.S1600000x1 32 :=
  broadcastInDim S1600000x1 ![0] bcast_S1600000_S1600000x1_0
    (select
      (cmpi .slt
        (shapeCast S1600000 (extractStridedSlice S1x1600000 ![0, 0] ei slices_S2x1600000_S1x1600000_0_0)
          shapeCasts_S1x1600000_S1600000)
        (broadcastInDim S1600000 ![] bcast_S_S1600000 (constantI S_ 32 0#32)))
      (addi
        (shapeCast S1600000 (extractStridedSlice S1x1600000 ![0, 0] ei slices_S2x1600000_S1x1600000_0_0)
          shapeCasts_S1x1600000_S1600000)
        (broadcastInDim S1600000 ![] bcast_S_S1600000 (constantI S_ 32 100000#32)))
      (shapeCast S1600000 (extractStridedSlice S1x1600000 ![0, 0] ei slices_S2x1600000_S1x1600000_0_0)
        shapeCasts_S1x1600000_S1600000))

/-- The target node of each edge (row 1 of the edge list). -/
def dstK (ei : IVec Cert.KernelIdeal.S2x1600000 32) : IVec Cert.KernelIdeal.S1600000x1 32 :=
  broadcastInDim S1600000x1 ![0] bcast_S1600000_S1600000x1_0
    (shapeCast S1600000 (extractStridedSlice S1x1600000 ![1, 0] ei slices_S2x1600000_S1x1600000_1_0)
      shapeCasts_S1x1600000_S1600000)

/-- The aggregate: into the zero array, at each edge's target node, add the features of its source node. -/
def aggK (x : FVec Ideal Cert.KernelIdeal.S100000x128 .f32) (ei : IVec Cert.KernelIdeal.S2x1600000 32) :
    FVec Ideal Cert.KernelIdeal.S100000x128 .f32 :=
  Host.scatterAdd (F := Ideal) scatter_S100000x128_S1600000x1_S1600000x128_1_0_0_1
    (broadcastInDim S100000x128 ![] bcast_S_S100000x128 (constant (F := Ideal) S_ .f32 0x00000000#32))
    (dstK ei)
    (Host.gather gather_S100000x128_S1600000x1_S1600000x128_1_0_n_n_0_1_1128 x (srcK ei))

/-- The aggregate of real features is real. -/
theorem agg_real (x : FVec Ideal Cert.KernelIdeal.S100000x128 .f32) (ei : IVec Cert.KernelIdeal.S2x1600000 32)
    (hx : ∀ i, IsR (x i)) : ∀ i, IsR (aggK x ei i) :=
  scatterAdd_real _ _ _ _ (splat_zero_real bcast_S_S100000x128) (gather_real _ x _ hx)

end Agg

/-! ## From the precondition to real arguments -/

/-- The rank-0 shape has one index. -/
instance : Subsingleton (⟨0, ![]⟩ : Shape).Idx := ⟨fun a b => funext fun d => d.elim0⟩

/-- One argument's test: if "every |x i| is below the pattern of +∞", and-ed over all axes, came out true,
    then every entry of `x` is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) (j : (⟨0, ![]⟩ : Shape).Idx)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu j = 1#1) :
    ∀ i, IsR (x i) := by
  intro i
  have h1 := Host.reduce_andi_all _ _ hr hu j e i
  have h2 : Ideal.cmp .olt (max (x i) (-(x i))) (Ideal.ofBits .f32 0x7F800000#32) = 1#1 := h1
  exact Cert.LibEReal.real_of_abs_lt_top _ (Cert.LibEReal.lt_top_of_cmp _ h2)

section Pre

variable [Cert.Pre_finite_inputs.Facts]
open Cert.Pre_finite_inputs Cert.Pre_finite_inputs.Facts

/-- The precondition over arbitrary argument arrays: all ten float arrays have real entries. -/
theorem real_of_fn (a0 : FVec Ideal S100000x128 .f32) (a1 : IVec S2x1600000 32) (a2 : FVec Ideal S128x128 .f32)
    (a3 a4 a5 : FVec Ideal S128 .f32) (a6 : FVec Ideal S128x128 .f32) (a7 a8 a9 : FVec Ideal S128 .f32)
    (a10 : FVec Ideal S128x128 .f32)
    (h : Cert.Pre_finite_inputs.fn (F := Ideal) a0 a1 a2 a3 a4 a5 a6 a7 a8 a9 a10 = fun _ => 1#1) :
    (∀ i, IsR (a0 i)) ∧ (∀ i, IsR (a2 i)) ∧ (∀ i, IsR (a3 i)) ∧ (∀ i, IsR (a4 i)) ∧ (∀ i, IsR (a5 i))
      ∧ (∀ i, IsR (a6 i)) ∧ (∀ i, IsR (a7 i)) ∧ (∀ i, IsR (a8 i)) ∧ (∀ i, IsR (a9 i)) ∧ (∀ i, IsR (a10 i)) := by
  have h0 := congrFun h ValueIdx.ix0
  dsimp only [Cert.Pre_finite_inputs.fn, Cert.Pre_finite_inputs.fn_part1, Cert.Pre_finite_inputs.fn_part2] at h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all a0 _ _ _ _ e0, real_of_all a2 _ _ _ _ e2, real_of_all a3 _ _ _ _ e3,
    real_of_all a4 _ _ _ _ e4, real_of_all a5 _ _ _ _ e5, real_of_all a6 _ _ _ _ e6,
    real_of_all a7 _ _ _ _ e7, real_of_all a8 _ _ _ _ e8, real_of_all a9 _ _ _ _ e9,
    real_of_all a10 _ _ _ _ e10⟩

end Pre

/-- Under the precondition every float argument of the kernel program, on every device, has real entries. -/
theorem real_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsR (m ((c.tc : Thread Cert.KernelIdeal.nD Cert.KernelIdeal.τ).loc Cert.KernelIdeal.main_arg0) i))
      ∧ (∀ i, IsR (m ((c.tc : Thread Cert.KernelIdeal.nD Cert.KernelIdeal.τ).loc Cert.KernelIdeal.main_arg2) i))
      ∧ (∀ i, IsR (m ((c.tc : Thread Cert.KernelIdeal.nD Cert.KernelIdeal.τ).loc Cert.KernelIdeal.main_arg3) i))
      ∧ (∀ i, IsR (m ((c.tc : Thread Cert.KernelIdeal.nD Cert.KernelIdeal.τ).loc Cert.KernelIdeal.main_arg4) i))
      ∧ (∀ i, IsR (m ((c.tc : Thread Cert.KernelIdeal.nD Cert.KernelIdeal.τ).loc Cert.KernelIdeal.main_arg5) i))
      ∧ (∀ i, IsR (m ((c.tc : Thread Cert.KernelIdeal.nD Cert.KernelIdeal.τ).loc Cert.KernelIdeal.main_arg6) i))
      ∧ (∀ i, IsR (m ((c.tc : Thread Cert.KernelIdeal.nD Cert.KernelIdeal.τ).loc Cert.KernelIdeal.main_arg7) i))
      ∧ (∀ i, IsR (m ((c.tc : Thread Cert.KernelIdeal.nD Cert.KernelIdeal.τ).loc Cert.KernelIdeal.main_arg8) i))
      ∧ (∀ i, IsR (m ((c.tc : Thread Cert.KernelIdeal.nD Cert.KernelIdeal.τ).loc Cert.KernelIdeal.main_arg9) i))
      ∧ (∀ i, IsR (m ((c.tc : Thread Cert.KernelIdeal.nD Cert.KernelIdeal.τ).loc Cert.KernelIdeal.main_arg10) i)) :=
  real_of_fn _ _ _ _ _ _ _ _ _ _ _ (hpre c)

end Cert.Gin.Fin

end
-- ==== Proof.KHost.lean ====
/-
  What each kernel region finds in the buffers it reads.

  The program's buffers at each boundary between a stretch of host operations and a kernel region are a fold
  of the operations over the launch memory, with a region's arrays replaced by what its write-backs leave.
  Walking that fold back for the buffers each region reads gives:
    • entering region 1: the features as launched, the aggregate, each weight matrix transposed, each 128-vector as a
      1×128 row;
    • entering region 2: region 1's output array, the mean and the one-pass variance finished from region 1's
      per-block statistics, and the rows and the transposed matrix prepared at the start, untouched since;
    • entering region 3: the same one layer later.
-/
import proofs.«113272_j71416716197907_2_alg».proof.Proof.Gen.KernelIdeal.Frame
import proofs.«113272_j71416716197907_2_alg».proof.Proof.KHostDefs
import proofs.«113272_j71416716197907_2_alg».proof.Proof.Finite
import Idealize.ShloMosaic.Lib.StableHlo.Run

set_option maxRecDepth 16384

noncomputable section

namespace Cert.Gin.KHost

open Idealize.ShloMosaic Idealize.ShloMosaic.TcCoe Idealize.SL.Sem Idealize.ShloMosaic.StableHlo
open Cert.KernelIdeal Cert.KernelIdeal.Gen Cert.Gin Cert.Gin.KH

variable (m : (ℓ : Loc nD τ sig) → Buf (Elt Ideal) ℓ) (ρ : Dev nD → PrngReg) (c : Dev nD)

/-! ## Entering the first region -/

theorem l1_x : V1 (F := Ideal) m ρ c main_arg0 = m ((c : Thread nD τ).loc main_arg0) := by
  show StableHlo.after hostOps0 (W0 m ρ c) (Proc.devRef .tc main_arg0) = _
  after_results

theorem l1_agg : V1 (F := Ideal) m ρ c main_v13 = Cert.Gin.Fin.aggK (m ((c : Thread nD τ).loc main_arg0)) (m ((c : Thread nD τ).loc main_arg1)) := by
  show StableHlo.after hostOps0 (W0 m ρ c) (Proc.devRef .tc main_v13) = _
  after_results
  rfl

theorem l1_main_v14 : V1 (F := Ideal) m ρ c main_v14 = tr (m ((c : Thread nD τ).loc main_arg2)) := by
  show StableHlo.after hostOps0 (W0 m ρ c) (Proc.devRef .tc main_v14) = _
  after_results
  rfl

theorem l1_main_v15 : V1 (F := Ideal) m ρ c main_v15 = tr (m ((c : Thread nD τ).loc main_arg6)) := by
  show StableHlo.after hostOps0 (W0 m ρ c) (Proc.devRef .tc main_v15) = _
  after_results
  rfl

theorem l1_main_v16 : V1 (F := Ideal) m ρ c main_v16 = tr (m ((c : Thread nD τ).loc main_arg10)) := by
  show StableHlo.after hostOps0 (W0 m ρ c) (Proc.devRef .tc main_v16) = _
  after_results
  rfl

theorem l1_main_v17 : V1 (F := Ideal) m ρ c main_v17 = rs (m ((c : Thread nD τ).loc main_arg3)) := by
  show StableHlo.after hostOps0 (W0 m ρ c) (Proc.devRef .tc main_v17) = _
  after_results
  rfl

theorem l1_main_v18 : V1 (F := Ideal) m ρ c main_v18 = rs (m ((c : Thread nD τ).loc main_arg4)) := by
  show StableHlo.after hostOps0 (W0 m ρ c) (Proc.devRef .tc main_v18) = _
  after_results
  rfl

theorem l1_main_v19 : V1 (F := Ideal) m ρ c main_v19 = rs (m ((c : Thread nD τ).loc main_arg5)) := by
  show StableHlo.after hostOps0 (W0 m ρ c) (Proc.devRef .tc main_v19) = _
  after_results
  rfl

theorem l1_main_v20 : V1 (F := Ideal) m ρ c main_v20 = rs (m ((c : Thread nD τ).loc main_arg7)) := by
  show StableHlo.after hostOps0 (W0 m ρ c) (Proc.devRef .tc main_v20) = _
  after_results
  rfl

theorem l1_main_v21 : V1 (F := Ideal) m ρ c main_v21 = rs (m ((c : Thread nD τ).loc main_arg8)) := by
  show StableHlo.after hostOps0 (W0 m ρ c) (Proc.devRef .tc main_v21) = _
  after_results
  rfl

theorem l1_main_v22 : V1 (F := Ideal) m ρ c main_v22 = rs (m ((c : Thread nD τ).loc main_arg9)) := by
  show StableHlo.after hostOps0 (W0 m ρ c) (Proc.devRef .tc main_v22) = _
  after_results
  rfl

/-! ## Entering the second region -/

theorem l3_h : V3 (F := Ideal) m ρ c main_v23_0 = (dat0 (V1 m ρ) c).arrAt 4 cfg0.N := by
  show StableHlo.after hostOps1 (W2 m ρ c) (Proc.devRef .tc main_v23_0) = _
  after_results
  exact W2_arr m ρ c 4

theorem l3_mean : V3 (F := Ideal) m ρ c main_v29 = meanOf (W2 m ρ c (Proc.devRef .tc main_v23_1)) := by
  show StableHlo.after hostOps1 (W2 m ρ c) (Proc.devRef .tc main_v29) = _
  after_results
  rfl

theorem l3_var : V3 (F := Ideal) m ρ c main_v33
    = varOf (W2 m ρ c (Proc.devRef .tc main_v23_1)) (W2 m ρ c (Proc.devRef .tc main_v23_2)) := by
  show StableHlo.after hostOps1 (W2 m ρ c) (Proc.devRef .tc main_v33) = _
  after_results
  rfl

theorem w2_sum : W2 (F := Ideal) m ρ c (Proc.devRef .tc main_v23_1) = (dat0 (V1 m ρ) c).arrAt 5 cfg0.N := W2_arr m ρ c 5
theorem w2_sumsq : W2 (F := Ideal) m ρ c (Proc.devRef .tc main_v23_2) = (dat0 (V1 m ρ) c).arrAt 6 cfg0.N := W2_arr m ρ c 6

theorem l3_main_v18 : V3 (F := Ideal) m ρ c main_v18 = V1 m ρ c main_v18 := by
  show StableHlo.after hostOps1 (W2 m ρ c) (Proc.devRef .tc main_v18) = _
  after_results
  exact W2_of_ne m ρ c main_v18 (by decide)

theorem l3_main_v19 : V3 (F := Ideal) m ρ c main_v19 = V1 m ρ c main_v19 := by
  show StableHlo.after hostOps1 (W2 m ρ c) (Proc.devRef .tc main_v19) = _
  after_results
  exact W2_of_ne m ρ c main_v19 (by decide)

theorem l3_main_v15 : V3 (F := Ideal) m ρ c main_v15 = V1 m ρ c main_v15 := by
  show StableHlo.after hostOps1 (W2 m ρ c) (Proc.devRef .tc main_v15) = _
  after_results
  exact W2_of_ne m ρ c main_v15 (by decide)

theorem l3_main_v20 : V3 (F := Ideal) m ρ c main_v20 = V1 m ρ c main_v20 := by
  show StableHlo.after hostOps1 (W2 m ρ c) (Proc.devRef .tc main_v20) = _
  after_results
  exact W2_of_ne m ρ c main_v20 (by decide)

theorem l3_main_v21 : V3 (F := Ideal) m ρ c main_v21 = V1 m ρ c main_v21 := by
  show StableHlo.after hostOps1 (W2 m ρ c) (Proc.devRef .tc main_v21) = _
  after_results
  exact W2_of_ne m ρ c main_v21 (by decide)

theorem l3_main_v22 : V3 (F := Ideal) m ρ c main_v22 = V1 m ρ c main_v22 := by
  show StableHlo.after hostOps1 (W2 m ρ c) (Proc.devRef .tc main_v22) = _
  after_results
  exact W2_of_ne m ρ c main_v22 (by decide)

theorem l3_main_v16 : V3 (F := Ideal) m ρ c main_v16 = V1 m ρ c main_v16 := by
  show StableHlo.after hostOps1 (W2 m ρ c) (Proc.devRef .tc main_v16) = _
  after_results
  exact W2_of_ne m ρ c main_v16 (by decide)

/-! ## Entering the third region -/

theorem l5_h : V5 (F := Ideal) m ρ c main_v34_0 = (dat1 (V3 m ρ) c).arrAt 7 cfg1.N := by
  show StableHlo.after hostOps2 (W4 m ρ c) (Proc.devRef .tc main_v34_0) = _
  after_results
  exact W4_arr m ρ c 7

theorem l5_mean : V5 (F := Ideal) m ρ c main_v40 = meanOf (W4 m ρ c (Proc.devRef .tc main_v34_1)) := by
  show StableHlo.after hostOps2 (W4 m ρ c) (Proc.devRef .tc main_v40) = _
  after_results
  rfl

theorem l5_var : V5 (F := Ideal) m ρ c main_v44
    = varOf (W4 m ρ c (Proc.devRef .tc main_v34_1)) (W4 m ρ c (Proc.devRef .tc main_v34_2)) := by
  show StableHlo.after hostOps2 (W4 m ρ c) (Proc.devRef .tc main_v44) = _
  after_results
  rfl

theorem w4_sum : W4 (F := Ideal) m ρ c (Proc.devRef .tc main_v34_1) = (dat1 (V3 m ρ) c).arrAt 8 cfg1.N := W4_arr m ρ c 8
theorem w4_sumsq : W4 (F := Ideal) m ρ c (Proc.devRef .tc main_v34_2) = (dat1 (V3 m ρ) c).arrAt 9 cfg1.N := W4_arr m ρ c 9

theorem l5_main_v21 : V5 (F := Ideal) m ρ c main_v21 = V3 m ρ c main_v21 := by
  show StableHlo.after hostOps2 (W4 m ρ c) (Proc.devRef .tc main_v21) = _
  after_results
  exact W4_of_ne m ρ c main_v21 (by decide)

theorem l5_main_v22 : V5 (F := Ideal) m ρ c main_v22 = V3 m ρ c main_v22 := by
  show StableHlo.after hostOps2 (W4 m ρ c) (Proc.devRef .tc main_v22) = _
  after_results
  exact W4_of_ne m ρ c main_v22 (by decide)

theorem l5_main_v16 : V5 (F := Ideal) m ρ c main_v16 = V3 m ρ c main_v16 := by
  show StableHlo.after hostOps2 (W4 m ρ c) (Proc.devRef .tc main_v16) = _
  after_results
  exact W4_of_ne m ρ c main_v16 (by decide)

/-! ## After the third region -/

theorem l6_out : W6 (F := Ideal) m ρ c (Proc.devRef .tc main_v45) = (dat2 (V5 m ρ) c).arrAt 6 cfg2.N := W6_arr m ρ c 6

end Cert.Gin.KHost

end
-- ==== Proof.Blocks.lean ====
/-
  Re-indexing of sums over the 100000 rows by blocks.

  The rows are walked as 25 blocks of 4000: row `4000·t + p` is row `p` of block `t`, and every row
  is of this form for exactly one pair `(t, p)`, so a sum over all rows is the sum over the blocks of
  the sums inside each block.

  Per-block statistics are kept in a 200-row array, 8 rows per block: row `8·t` holds the value of
  block `t` and the other seven rows of the block hold zero, so summing the 200 rows of a column
  gives the sum of the 25 block values.
-/
import proofs.«113272_j71416716197907_2_alg».proof.Proof.Spec
import Mathlib.Tactic

noncomputable section

namespace Cert.Gin

open Idealize.ShloMosaic Idealize.ShloMosaic.ValueIdx

/-- Row `4000·t + p` of a 100000-row array, for a block `t < 25` and a row `p < 4000` inside it. -/
def rowOf (t : Fin 25) (p : Fin 4000) : Fin 100000 := ⟨t.val * 4000 + p.val, by have := t.isLt; have := p.isLt; omega⟩

/-- A 200-row array of per-block statistics: row `8·t` holds `f t q`, the other rows zero. -/
def statArr (f : Fin 25 → Fin 128 → EReal) : (⟨2, ![200, 128]⟩ : Shape).Idx → EReal :=
  fun i => if (i 0).val % 8 = 0 then f ⟨(i 0).val / 8, by have h : (i 0).val < 200 := (i 0).isLt; show (i 0).val / 8 < 25; omega⟩ (i 1) else 0

/-- Every row is row `r mod 4000` of block `r / 4000`, and of no other block: the pairs
    (block, row inside the block) are in bijection with the rows. -/
def blockEquiv : Fin 25 × Fin 4000 ≃ Fin 100000 where
  toFun tp := rowOf tp.1 tp.2
  invFun r := (⟨r.val / 4000, by have := r.isLt; omega⟩, ⟨r.val % 4000, by omega⟩)
  left_inv := by
    rintro ⟨t, p⟩
    have := t.isLt
    have := p.isLt
    refine Prod.ext (Fin.ext ?_) (Fin.ext ?_)
    · show (t.val * 4000 + p.val) / 4000 = t.val
      omega
    · show (t.val * 4000 + p.val) % 4000 = p.val
      omega
  right_inv := by
    intro r
    refine Fin.ext ?_
    show r.val / 4000 * 4000 + r.val % 4000 = r.val
    omega

/-- A sum over the 100000 rows is the sum over the 25 blocks of the sums over each block's 4000 rows. -/
theorem sum_rows (g : Fin 100000 → EReal) :
    ∑ r : Fin 100000, g r = ∑ t : Fin 25, ∑ p : Fin 4000, g (rowOf t p) :=
  calc ∑ r : Fin 100000, g r
      = ∑ tp : Fin 25 × Fin 4000, g (rowOf tp.1 tp.2) :=
        (Fintype.sum_equiv blockEquiv (fun tp => g (rowOf tp.1 tp.2)) g (fun _ => rfl)).symm
    _ = ∑ t : Fin 25, ∑ p : Fin 4000, g (rowOf t p) :=
        Fintype.sum_prod_type' (fun t p => g (rowOf t p))

/-- The column sum of a matrix, block by block. -/
theorem colsum_blocks (H : Mat 100000 128) (q : Fin 128) :
    ∑ r : Fin 100000, H r q = ∑ t : Fin 25, ∑ p : Fin 4000, H (rowOf t p) q :=
  sum_rows (fun r => H r q)

/-- The statistics array read at row `Q` and column `q`. -/
theorem statArr_ix2 (f : Fin 25 → Fin 128 → EReal) (Q : Fin 200) (q : Fin 128) :
    statArr f (ix2 Q q)
      = if Q.val % 8 = 0 then f ⟨Q.val / 8, by have := Q.isLt; omega⟩ q else 0 := rfl

/-- Row `8·t + a` of the 200-row statistics array. -/
def statRow (t : Fin 25) (a : Fin 8) : Fin 200 := ⟨t.val * 8 + a.val, by have := t.isLt; have := a.isLt; omega⟩

/-- Inside block `t` of the statistics array, the first of the eight rows holds `f t q` and the
    other seven hold zero. -/
theorem statArr_blk (f : Fin 25 → Fin 128 → EReal) (t : Fin 25) (a : Fin 8) (q : Fin 128) :
    statArr f (ix2 (statRow t a) q) = if a.val = 0 then f t q else 0 := by
  rw [statArr_ix2]
  have ha := a.isLt
  by_cases h : a.val = 0
  · have h8 : (statRow t a).val % 8 = 0 := by
      show (t.val * 8 + a.val) % 8 = 0
      omega
    rw [if_pos h8, if_pos h]
    congr 1
    exact Fin.ext (by show (t.val * 8 + a.val) / 8 = t.val; omega)
  · have h8 : ¬ (statRow t a).val % 8 = 0 := by
      show ¬ (t.val * 8 + a.val) % 8 = 0
      omega
    rw [if_neg h8, if_neg h]

/-- Summing a column of the statistics array over its 200 rows gives the sum of the 25 block values:
    the rows `8·t` carry the values, one per block, and every other row is zero. -/
theorem sum_statArr (f : Fin 25 → Fin 128 → EReal) (q : Fin 128) :
    ∑ Q : Fin 200, statArr f (ix2 Q q) = ∑ t : Fin 25, f t q := by
  symm
  refine Finset.sum_of_injOn
    (fun t : Fin 25 => (⟨t.val * 8, by have := t.isLt; omega⟩ : Fin 200)) ?_ ?_ ?_ ?_
  · intro a _ b _ hab
    have h : a.val * 8 = b.val * 8 := congrArg Fin.val hab
    exact Fin.ext (by omega)
  · intro _ _
    exact Finset.mem_coe.2 (Finset.mem_univ _)
  · intro Q _ hQ
    rw [statArr_ix2]
    by_cases h : Q.val % 8 = 0
    · exfalso
      apply hQ
      refine ⟨⟨Q.val / 8, by have := Q.isLt; omega⟩, Finset.mem_coe.2 (Finset.mem_univ _), Fin.ext ?_⟩
      show Q.val / 8 * 8 = Q.val
      omega
    · rw [if_neg h]
  · intro t _
    rw [statArr_ix2]
    have h : (t.val * 8) % 8 = 0 := by omega
    rw [if_pos h]
    congr 1
    exact Fin.ext (by show t.val = t.val * 8 / 8; omega)

end Cert.Gin

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.KBody.lean ====
/-
  The three kernel bodies' arithmetic, read at an entry.

  Each generated payload term is a pure function of the vectors a kernel body has read.  At the ideal instance every
  rounding is the identity and every operation is the extended reals' own, so each payload at an entry (p, q) is a
  closed expression in the operands' entries: a matrix product is the sum over the shared axis, a sum over the rows is
  the sum over the 4000 row positions, a row broadcast reads the one row, and the 8×128 statistics block carries its row
  on row 0 and zero below.  The normalise-and-clip shared by the second and third kernels is `bnAt`.
-/
import proofs.«113272_j71416716197907_2_alg».proof.Proof.Gen.KernelIdeal.Skeleton
import proofs.«113272_j71416716197907_2_alg».proof.Proof.Spec
import proofs.«113272_j71416716197907_2_alg».proof.Proof.LibMatDot
import Idealize.ShloMosaic.Lib.ValueLayout
import Idealize.ShloMosaic.Lib.Pipeline.Value
import Idealize.ShloMosaic.PureOps.Ideal.Laws

noncomputable section

open scoped BigOperators

namespace Cert.Gin.KBody

open Idealize.ShloMosaic Idealize.ShloMosaic.ValueIdx Cert.KernelIdeal Cert.KernelIdeal.Gen Cert.Gin

/-- The normalise-and-clip of one entry: `max ((h − μ) · (v + ε)^(-1/2) · γ + β, 0)`. -/
def bnAt (h μ v g be : EReal) : EReal := max ((h - μ) * Ideal.rsqrt (v + Cert.Gin.eps) * g + be) 0

/-! ## The matrix product at an entry -/

theorem dot_l0 (j : S4000x128.Idx) (c : dot_S4000x128_S128x128_S4000x128_1_0_0_1_n_n.contr.Idx) :
    (dot_S4000x128_S128x128_S4000x128_1_0_0_1_n_n.lhsIdx j c 0).val = (j 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem dot_r1 (j : S4000x128.Idx) (c : dot_S4000x128_S128x128_S4000x128_1_0_0_1_n_n.contr.Idx) :
    (dot_S4000x128_S128x128_S4000x128_1_0_0_1_n_n.rhsIdx j c 1).val = (j 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The product of a 4000×128 and a 128×128 matrix into the zero accumulator, at entry (p, q). -/
theorem mat_apply {φ₁ φ₂ : FTy} (lhs : FVec Ideal S4000x128 φ₁) (rhs : FVec Ideal S128x128 φ₂) (p : Fin 4000) (q : Fin 128) :
    matmul dot_S4000x128_S128x128_S4000x128_1_0_0_1_n_n none lhs rhs (constant (F := Ideal) S4000x128 .f32 0x00000000#32) (ix2 p q)
      = ∑ k : Fin 128, lhs (ix2 p k) * rhs (ix2 k q) :=
  mat_dot_zero dot_S4000x128_S128x128_S4000x128_1_0_0_1_n_n none rfl rfl dot_l0
    (fun j c => dot_S4000x128_S128x128_S4000x128_1_0_0_1_n_n.lhsIdx_val_of_single rfl j c)
    (fun j c => dot_S4000x128_S128x128_S4000x128_1_0_0_1_n_n.rhsIdx_val_of_single rfl j c)
    dot_r1 lhs rhs p q

/-! ## Layout: a row broadcast over the rows, a column sum, the statistics block -/

/-- A 1×128 row, cast to its own shape and broadcast over `a` rows, reads at (p, c) the row at c. -/
theorem row_apply {a : Nat} (r : S1x128.Idx → EReal) (hs : S1x128.ShapeCasts S1x128)
    (hb : S1x128.Broadcasts ⟨2, ![a, 128]⟩) (p : Fin a) (c : Fin 128) :
    broadcastTo ⟨2, ![a, 128]⟩ (shapeCast S1x128 r hs) hb (ix2 p c) = r (ix2 0 c) := by
  rw [shapeCast_self]
  exact broadcastTo_1b_ab_apply r hb p c

/-- The sum over the 4000 rows, at column q. -/
theorem colsum_apply (src : FVec Ideal S4000x128 .f32) (h : S4000x128.Reduces [0] S128) (hφ : FKind.Formats .f32)
    (hacc : (0x00000000#32 : BitVec 32) = 0x00000000#32) (q : Fin 128) :
    multiReduction (F := Ideal) .add [0] S128 src 0x00000000#32 h hφ hacc (ix1 q) = ∑ p : Fin 4000, src (ix2 p q) := by
  refine (Ideal.multiReduction_add_single src 0x00000000#32 h hφ hacc (ix1 q)).trans ?_
  refine Finset.sum_congr rfl fun p _ => congrArg src ?_
  funext a
  refine Fin.ext ?_
  match a with
  | ⟨0, _⟩ => rfl
  | ⟨1, _⟩ => rfl

/-- A select on "the row coordinate is 0", the coordinate below 8, is the `if` on it. -/
theorem select_row0 {α : Type} (n : Nat) (hn : n < 8) (A B : α) :
    Scalar.select (IntOp.cmpi .eq (BitVec.ofNat 32 n) 0#32) A B = if n = 0 then A else B := by
  interval_cases n <;> rfl

/-- The 8×128 statistics block of a 1×128 row: the row on row 0 and zero below. -/
theorem stat_apply (r : S1x128.Idx → EReal) (hι : S8x128.Iotas .tc 32 [0]) (hs : S1x128.ShapeCasts S1x128)
    (hb : S1x128.Broadcasts S8x128) (a : Fin 8) (q : Fin 128) :
    select (cmpi .eq (iota .tc S8x128 32 [0] hι) (broadcast S8x128 0#32))
        (broadcastTo S8x128 (shapeCast S1x128 r hs) hb)
        (broadcast S8x128 (Scalar.ofBits (F := Ideal) .f32 0x00000000#32)) (ix2 a q)
      = if a.val = 0 then r (ix2 0 q) else 0 := by
  refine (select_apply _ _ _ _).trans ?_
  refine (congrArg (fun w => Scalar.select (IntOp.cmpi .eq w 0#32) _ _)
    (iota_single_apply .tc S8x128 32 0 hι (ix2 a q))).trans ?_
  refine (select_row0 a.val a.isLt _ _).trans ?_
  rw [row_apply r hs hb a q]
  exact congrArg (fun z => if a.val = 0 then r (ix2 0 q) else z) Ideal.ofBits_zero_f32

/-! ## The normalise-and-clip at an entry -/

/-- The literals: the scalar constants of a payload are the ideal instance's words. -/
theorem scalar_ofBits (w : BitVec 32) : Scalar.ofBits (F := Ideal) .f32 w = Ideal.ofBits .f32 w := rfl

/-- Subtract the mean row, scale by the reciprocal root of the variance row plus ε and by γ, add β, clip at 0:
    at entry (p, k) it is `bnAt` of the entry and the four rows at k. -/
theorem bn_apply (v0 : FVec Ideal S4000x128 .bf16) (v3 v5 v7 v9 : FVec Ideal S1x128 .f32)
    (h0 : S4000x128.ShapeCasts S4000x128) (hlt : FTy.bits .bf16 < FTy.bits .f32) (hs : S1x128.ShapeCasts S1x128)
    (hb : S1x128.Broadcasts S4000x128) (p : Fin 4000) (k : Fin 128) :
    maximumf
        (addf
          (mulf
            (mulf (subf (extf .f32 (shapeCast S4000x128 v0 h0) hlt) (broadcastTo S4000x128 (shapeCast S1x128 v3 hs) hb))
              (broadcastTo S4000x128
                (rsqrt (addf (shapeCast S1x128 v5 hs) (broadcast S1x128 (Scalar.ofBits (F := Ideal) .f32 0x3727C5AC#32)))) hb))
            (broadcastTo S4000x128 (shapeCast S1x128 v7 hs) hb))
          (broadcastTo S4000x128 (shapeCast S1x128 v9 hs) hb))
        (broadcast S4000x128 (Scalar.ofBits (F := Ideal) .f32 0x00000000#32)) (ix2 p k)
      = bnAt (v0 (ix2 p k)) (v3 (ix2 0 k)) (v5 (ix2 0 k)) (v7 (ix2 0 k)) (v9 (ix2 0 k)) := by
  show max
      ((shapeCast S4000x128 v0 h0 (ix2 p k) - broadcastTo S4000x128 (shapeCast S1x128 v3 hs) hb (ix2 p k))
          * broadcastTo S4000x128
              (rsqrt (addf (shapeCast S1x128 v5 hs) (broadcast S1x128 (Scalar.ofBits (F := Ideal) .f32 0x3727C5AC#32)))) hb (ix2 p k)
          * broadcastTo S4000x128 (shapeCast S1x128 v7 hs) hb (ix2 p k)
        + broadcastTo S4000x128 (shapeCast S1x128 v9 hs) hb (ix2 p k))
      (Ideal.ofBits .f32 0x00000000#32) = _
  rw [row_apply v3 hs hb p k, row_apply v7 hs hb p k, row_apply v9 hs hb p k, shapeCast_self v0 h0,
    broadcastTo_1b_ab_apply _ hb p k, Ideal.ofBits_zero_f32]
  show max ((v0 (ix2 p k) - v3 (ix2 0 k)) * Ideal.rsqrt (shapeCast S1x128 v5 hs (ix2 0 k) + Cert.Gin.eps) * v7 (ix2 0 k)
      + v9 (ix2 0 k)) 0 = _
  rw [shapeCast_self v5 hs]
  rfl

/-! ## The first kernel: linear map of the features plus the aggregate, and its column statistics -/

theorem pay0_1 (v0 v1 : Vec Ideal S4000x128 .f32) (v7 : Vec Ideal S128x128 .f32) (v11 : Vec Ideal S1x128 .f32)
    (p : Fin 4000) (q : Fin 128) :
    k0_pay1 (F := Ideal) v0 v1 v7 v11 (ix2 p q)
      = (∑ k : Fin 128, (v0 (ix2 p k) * Ideal.ofBits .f32 0x3F800000#32 + v1 (ix2 p k)) * v7 (ix2 k q)) + v11 (ix2 0 q) := by
  unfold k0_pay1
  refine (addf_apply _ _ _).trans ?_
  refine congrArg₂ (· + ·) ((mat_apply _ _ p q).trans (Finset.sum_congr rfl fun k _ => congrArg₂ (· * ·) ?_ ?_))
    (row_apply v11 _ _ p q)
  · show v0 (ix2 p k) * Ideal.ofBits .f32 0x3F800000#32 + shapeCast S4000x128 v1 _ (ix2 p k) = _
    rw [shapeCast_self]
  · show shapeCast S128x128 v7 _ (ix2 k q) = _
    rw [shapeCast_self]

/-- The rounding to bf16 is the identity at the ideal instance. -/
theorem pay0_2 (v0 v1 : Vec Ideal S4000x128 .f32) (v7 : Vec Ideal S128x128 .f32) (v11 : Vec Ideal S1x128 .f32)
    (p : Fin 4000) (q : Fin 128) :
    k0_pay2 (F := Ideal) v0 v1 v7 v11 (ix2 p q) = k0_pay1 (F := Ideal) v0 v1 v7 v11 (ix2 p q) := rfl

theorem pay0_3 (v0 v1 : Vec Ideal S4000x128 .f32) (v7 : Vec Ideal S128x128 .f32) (v11 : Vec Ideal S1x128 .f32)
    (a : Fin 8) (q : Fin 128) :
    k0_pay3 (F := Ideal) v0 v1 v7 v11 (ix2 a q)
      = if a.val = 0 then ∑ p : Fin 4000, k0_pay1 (F := Ideal) v0 v1 v7 v11 (ix2 p q) else 0 := by
  unfold k0_pay3
  refine (stat_apply _ _ _ _ a q).trans ?_
  rw [shapeCast_a_1a_apply, colsum_apply]

theorem pay0_4 (v0 v1 : Vec Ideal S4000x128 .f32) (v7 : Vec Ideal S128x128 .f32) (v11 : Vec Ideal S1x128 .f32)
    (a : Fin 8) (q : Fin 128) :
    k0_pay4 (F := Ideal) v0 v1 v7 v11 (ix2 a q)
      = if a.val = 0 then ∑ p : Fin 4000, k0_pay1 (F := Ideal) v0 v1 v7 v11 (ix2 p q) * k0_pay1 (F := Ideal) v0 v1 v7 v11 (ix2 p q)
        else 0 := by
  unfold k0_pay4
  refine (stat_apply _ _ _ _ a q).trans ?_
  rw [shapeCast_a_1a_apply, colsum_apply]
  rfl

/-! ## The second kernel: normalise, clip, linear map, and its column statistics -/

theorem pay1_3 (v0 : Vec Ideal S4000x128 .bf16) (v3 v5 v7 v9 : Vec Ideal S1x128 .f32) (v25 : Vec Ideal S128x128 .f32)
    (v29 : Vec Ideal S1x128 .f32) (p : Fin 4000) (q : Fin 128) :
    k1_pay3 (F := Ideal) v0 v3 v5 v7 v9 v25 v29 (ix2 p q)
      = (∑ k : Fin 128, bnAt (v0 (ix2 p k)) (v3 (ix2 0 k)) (v5 (ix2 0 k)) (v7 (ix2 0 k)) (v9 (ix2 0 k)) * v25 (ix2 k q))
        + v29 (ix2 0 q) := by
  unfold k1_pay3
  refine (addf_apply _ _ _).trans ?_
  refine congrArg₂ (· + ·) ((mat_apply _ _ p q).trans (Finset.sum_congr rfl fun k _ => congrArg₂ (· * ·) ?_ ?_))
    (row_apply v29 _ _ p q)
  · exact bn_apply v0 v3 v5 v7 v9 _ _ _ _ p k
  · show shapeCast S128x128 v25 _ (ix2 k q) = _
    rw [shapeCast_self]

/-- The rounding to bf16 is the identity at the ideal instance. -/
theorem pay1_4 (v0 : Vec Ideal S4000x128 .bf16) (v3 v5 v7 v9 : Vec Ideal S1x128 .f32) (v25 : Vec Ideal S128x128 .f32)
    (v29 : Vec Ideal S1x128 .f32) (p : Fin 4000) (q : Fin 128) :
    k1_pay4 (F := Ideal) v0 v3 v5 v7 v9 v25 v29 (ix2 p q) = k1_pay3 (F := Ideal) v0 v3 v5 v7 v9 v25 v29 (ix2 p q) := rfl

theorem pay1_5 (v0 : Vec Ideal S4000x128 .bf16) (v3 v5 v7 v9 : Vec Ideal S1x128 .f32) (v25 : Vec Ideal S128x128 .f32)
    (v29 : Vec Ideal S1x128 .f32) (q : Fin 128) :
    k1_pay5 (F := Ideal) v0 v3 v5 v7 v9 v25 v29 (ix2 0 q)
      = ∑ p : Fin 4000, k1_pay3 (F := Ideal) v0 v3 v5 v7 v9 v25 v29 (ix2 p q) := by
  unfold k1_pay5
  rw [shapeCast_a_1a_apply, colsum_apply]

theorem pay1_6 (v0 : Vec Ideal S4000x128 .bf16) (v3 v5 v7 v9 : Vec Ideal S1x128 .f32) (v25 : Vec Ideal S128x128 .f32)
    (v29 : Vec Ideal S1x128 .f32) (p : Fin 4000) (q : Fin 128) :
    k1_pay6 (F := Ideal) v0 v3 v5 v7 v9 v25 v29 (ix2 p q)
      = k1_pay3 (F := Ideal) v0 v3 v5 v7 v9 v25 v29 (ix2 p q) * k1_pay3 (F := Ideal) v0 v3 v5 v7 v9 v25 v29 (ix2 p q) := rfl

theorem pay1_1 (s : FVec Ideal S1x128 .f32) (a : Fin 8) (q : Fin 128) :
    k1_pay1 (F := Ideal) s (ix2 a q) = if a.val = 0 then s (ix2 0 q) else 0 := by
  unfold k1_pay1
  exact stat_apply s _ _ _ a q

theorem pay1_2 (v : FVec Ideal S4000x128 .f32) (a : Fin 8) (q : Fin 128) :
    k1_pay2 (F := Ideal) v (ix2 a q) = if a.val = 0 then ∑ p : Fin 4000, v (ix2 p q) else 0 := by
  unfold k1_pay2
  refine (stat_apply _ _ _ _ a q).trans ?_
  rw [shapeCast_a_1a_apply, colsum_apply]

/-! ## The third kernel: normalise, clip, linear map without bias, clip -/

theorem pay2_1 (v0 : Vec Ideal S4000x128 .bf16) (v3 v5 v7 v9 : Vec Ideal S1x128 .f32) (v25 : Vec Ideal S128x128 .f32)
    (p : Fin 4000) (q : Fin 128) :
    k2_pay1 (F := Ideal) v0 v3 v5 v7 v9 v25 (ix2 p q)
      = max (∑ k : Fin 128, bnAt (v0 (ix2 p k)) (v3 (ix2 0 k)) (v5 (ix2 0 k)) (v7 (ix2 0 k)) (v9 (ix2 0 k)) * v25 (ix2 k q)) 0 := by
  unfold k2_pay1
  refine (maximumf_apply _ _ _).trans ?_
  refine congrArg₂ max ((mat_apply _ _ p q).trans (Finset.sum_congr rfl fun k _ => congrArg₂ (· * ·) ?_ ?_))
    Ideal.ofBits_zero_f32
  · exact bn_apply v0 v3 v5 v7 v9 _ _ _ _ p k
  · show shapeCast S128x128 v25 _ (ix2 k q) = _
    rw [shapeCast_self]

end Cert.Gin.KBody

end
-- ==== Proof.KRegion0.lean ====
/-
  The first kernel region, read as whole arrays.

  The region walks 25 blocks of 4000 rows.  At block t it reads rows 4000·t … 4000·t+3999 of the features and of the
  aggregate, the whole (transposed) weight matrix and the bias row, and writes
    • rows 4000·t … of the first linear layer's output  H1 = (x·1 + agg)·Wt + b,
    • an 8-row block of a 200-row array whose first row is the column sums of those 4000 rows of H1 and whose
      other seven rows are zero,
    • the same with the sums of squares.
  Every row of each output array lies in exactly one block, so after the region each output array is ONE function
  of the arrays the region found (its entry contents): `h1_arr`, `sum_arr`, `sumsq_arr`.
-/
import proofs.«113272_j71416716197907_2_alg».proof.Proof.Gen.KernelIdeal.Frame
import proofs.«113272_j71416716197907_2_alg».proof.Proof.Spec
import proofs.«113272_j71416716197907_2_alg».proof.Proof.Blocks
import proofs.«113272_j71416716197907_2_alg».proof.Proof.KBody
import Idealize.ShloMosaic.Lib.Pipeline.Value
import Idealize.ShloMosaic.Lib.ValueIdx

set_option maxRecDepth 16384

noncomputable section

namespace Cert.Gin.K0

open Idealize.ShloMosaic Idealize.ShloMosaic.ValueIdx Idealize.ShloMosaic.TcCoe Idealize.SL.Sem
open Cert.KernelIdeal Cert.KernelIdeal.Gen Cert.Gin Cert.Gin.KBody
open Idealize.ShloMosaic.Pipeline (Dat)

variable (V : (c : Dev nD) → (b : Ref sig .tc) → Buf (Elt Ideal) ((c : Thread nD τ).loc b))

/-! ## The three output arrays as functions of the region's four input arrays -/

/-- The first linear layer's output at row `r`, column `q`. -/
def h1 (x agg : S100000x128.Idx → EReal) (wt : S128x128.Idx → EReal) (b : S1x128.Idx → EReal) (r : Fin 100000) (q : Fin 128) : EReal :=
  (∑ k : Fin 128, (x (ix2 r k) * Ideal.ofBits .f32 0x3F800000#32 + agg (ix2 r k)) * wt (ix2 k q)) + b (ix2 0 q)

def h1_arr (x agg : S100000x128.Idx → EReal) (wt : S128x128.Idx → EReal) (b : S1x128.Idx → EReal) : S100000x128.Idx → EReal :=
  fun i => h1 x agg wt b (i 0) (i 1)

def sum_arr (x agg : S100000x128.Idx → EReal) (wt : S128x128.Idx → EReal) (b : S1x128.Idx → EReal) : S200x128.Idx → EReal :=
  statArr fun t q => ∑ p : Fin 4000, h1 x agg wt b (rowOf t p) q

def sumsq_arr (x agg : S100000x128.Idx → EReal) (wt : S128x128.Idx → EReal) (b : S1x128.Idx → EReal) : S200x128.Idx → EReal :=
  statArr fun t q => ∑ p : Fin 4000, h1 x agg wt b (rowOf t p) q * h1 x agg wt b (rowOf t p) q

/-! ## The index maps, decided over the 25 grid points -/

theorem hz : (![0, 0] : Fin 2 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ t.val < 25 :=
  (by decide +kernel : ∀ t : Fin grid0.N, _)

/-- The grid point of block `t`. -/
def pt (t : Fin 25) : Fin cfg0.N := ⟨t.val, by have := t.isLt; show t.val < 25; omega⟩

/-! ## The input blocks, read where the point's rectangle says -/

/-- Block `t` of the features (window 0): rows `4000·t …` of the array the region found. -/
theorem blk0 (c : Dev nD) (t : Fin 25) (p : Fin 4000) (k : Fin 128) :
    iblk0 V c 0 (pt t) (ix2 p k) = V c main_arg0 (ix2 (rowOf t p) k) := by
  obtain ⟨e00, e01, -⟩ := idx_facts (pt t)
  show V c main_arg0 (((cfg0.win 0).blk (pt t)).view.emb (ix2 p k)) = V c main_arg0 (ix2 (rowOf t p) k)
  refine congrArg _ (funext fun a => Fin.ext ?_)
  match a with
  | ⟨0, _⟩ => show win0_0.index (pt t) (0 : Fin 2) * 4000 + 1 * p.val = t.val * 4000 + p.val; rw [e00]; show t.val * 4000 + 1 * p.val = _; omega
  | ⟨1, _⟩ => show win0_0.index (pt t) (1 : Fin 2) * 128 + 1 * k.val = k.val; rw [e01]; omega

/-- Block `t` of the aggregate (window 1). -/
theorem blk1 (c : Dev nD) (t : Fin 25) (p : Fin 4000) (k : Fin 128) :
    iblk0 V c 1 (pt t) (ix2 p k) = V c main_v13 (ix2 (rowOf t p) k) := by
  obtain ⟨-, -, e10, e11, -⟩ := idx_facts (pt t)
  show V c main_v13 (((cfg0.win 1).blk (pt t)).view.emb (ix2 p k)) = V c main_v13 (ix2 (rowOf t p) k)
  refine congrArg _ (funext fun a => Fin.ext ?_)
  match a with
  | ⟨0, _⟩ => show win0_1.index (pt t) (0 : Fin 2) * 4000 + 1 * p.val = t.val * 4000 + p.val; rw [e10]; show t.val * 4000 + 1 * p.val = _; omega
  | ⟨1, _⟩ => show win0_1.index (pt t) (1 : Fin 2) * 128 + 1 * k.val = k.val; rw [e11]; omega

/-- The weight matrix (window 2) is read whole at every point. -/
theorem blk2 (c : Dev nD) (t : Fin 25) (k q : Fin 128) :
    iblk0 V c 2 (pt t) (ix2 k q) = V c main_v14 (ix2 k q) := by
  obtain ⟨-, -, -, -, e20, e21, -⟩ := idx_facts (pt t)
  show V c main_v14 (((cfg0.win 2).blk (pt t)).view.emb (ix2 k q)) = V c main_v14 (ix2 k q)
  refine congrArg _ (funext fun a => Fin.ext ?_)
  match a with
  | ⟨0, _⟩ => show win0_2.index (pt t) (0 : Fin 2) * 128 + 1 * k.val = k.val; rw [e20]; omega
  | ⟨1, _⟩ => show win0_2.index (pt t) (1 : Fin 2) * 128 + 1 * q.val = q.val; rw [e21]; omega

/-- The bias row (window 3) is read whole at every point. -/
theorem blk3 (c : Dev nD) (t : Fin 25) (q : Fin 128) :
    iblk0 V c 3 (pt t) (ix2 0 q) = V c main_v17 (ix2 0 q) := by
  obtain ⟨-, -, -, -, -, -, e30, e31, -⟩ := idx_facts (pt t)
  show V c main_v17 (((cfg0.win 3).blk (pt t)).view.emb (ix2 0 q)) = V c main_v17 (ix2 0 q)
  refine congrArg _ (funext fun a => Fin.ext ?_)
  match a with
  | ⟨0, _⟩ => show win0_3.index (pt t) (0 : Fin 2) * 1 + 1 * 0 = 0; rw [e30]
  | ⟨1, _⟩ => show win0_3.index (pt t) (1 : Fin 2) * 128 + 1 * q.val = q.val; rw [e31]; omega

/-- The body's linear-layer payload at block `t`, row `p`, column `q` is the layer's output at row `4000·t + p`. -/
theorem pay_h1 (c : Dev nD) (t : Fin 25) (p : Fin 4000) (q : Fin 128) :
    k0_pay1 (F := Ideal) (iblk0 V c 0 (pt t)) (iblk0 V c 1 (pt t)) (iblk0 V c 2 (pt t)) (iblk0 V c 3 (pt t)) (ix2 p q)
      = h1 (V c main_arg0) (V c main_v13) (V c main_v14) (V c main_v17) (rowOf t p) q := by
  refine (pay0_1 (iblk0 V c 0 (pt t)) (iblk0 V c 1 (pt t)) (iblk0 V c 2 (pt t)) (iblk0 V c 3 (pt t)) p q).trans ?_
  unfold h1
  rw [blk3 V c t q]
  refine congrArg (· + _) (Finset.sum_congr rfl fun k _ => ?_)
  rw [blk0 V c t p k, blk1 V c t p k, blk2 V c t k q]

/-! ## What a point writes back, the cover, and the arrays after the region -/

theorem pt_surj (t : Fin cfg0.N) : ∃ t' : Fin 25, t = pt t' := ⟨⟨t.val, (idx_facts t).2.2.2.2.2.2.2.2.2.2.2.2.2.2⟩, Fin.ext rfl⟩

/-- Point `t` writes back block `t` of the linear layer's output. -/
theorem flushed4 (c : Dev nD) (t : Fin 25) :
    (dat0 V c).flushed 4 (pt t) = ((cfg0.win 4).blk (pt t)).view.read (Elt Ideal)
      (h1_arr (V c main_arg0) (V c main_v13) (V c main_v14) (V c main_v17)) := by
  obtain ⟨-, -, -, -, -, -, -, -, e40, e41, -⟩ := idx_facts (pt t)
  show (cfg0.win 4).cut (grid0.coords (pt t)) ((dat0 V c).after 4 (pt t)) = _
  rw [after0_4]
  unfold out0_4
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k0_pay2 (F := Ideal) (iblk0 V c 0 (pt t)) (iblk0 V c 1 (pt t)) (iblk0 V c 2 (pt t)) (iblk0 V c 3 (pt t)) (ix2 p q)
    = h1_arr (V c main_arg0) (V c main_v13) (V c main_v14) (V c main_v17) (((cfg0.win 4).blk (pt t)).view.emb (ix2 p q))
  have e : ((cfg0.win 4).blk (pt t)).view.emb (ix2 p q) = ix2 (rowOf t p) q := funext fun a => Fin.ext (by
    match a with
    | ⟨0, _⟩ => show win0_4.index (pt t) (0 : Fin 2) * 4000 + 1 * p.val = t.val * 4000 + p.val; rw [e40]; show t.val * 4000 + 1 * p.val = _; omega
    | ⟨1, _⟩ => show win0_4.index (pt t) (1 : Fin 2) * 128 + 1 * q.val = q.val; rw [e41]; omega)
  rw [e]
  exact (pay0_2 (iblk0 V c 0 (pt t)) (iblk0 V c 1 (pt t)) (iblk0 V c 2 (pt t)) (iblk0 V c 3 (pt t)) p q).trans (pay_h1 V c t p q)

/-- Point `t` writes back block `t` of the column-sum statistics. -/
theorem flushed5 (c : Dev nD) (t : Fin 25) :
    (dat0 V c).flushed 5 (pt t) = ((cfg0.win 5).blk (pt t)).view.read (Elt Ideal)
      (sum_arr (V c main_arg0) (V c main_v13) (V c main_v14) (V c main_v17)) := by
  obtain ⟨-, -, -, -, -, -, -, -, -, -, e50, e51, -⟩ := idx_facts (pt t)
  show (cfg0.win 5).cut (grid0.coords (pt t)) ((dat0 V c).after 5 (pt t)) = _
  rw [after0_5]
  unfold out0_5
  rw [View.canon_unit_zero hz]
  simp only [View.ld_unit_zero (S := S4000x128) hz, View.ld_unit_zero (S := S128x128) hz, View.ld_unit_zero (S := S1x128) hz]
  funext j
  obtain ⟨a, q, rfl⟩ : ∃ (a : Fin 8) (q : Fin 128), j = ix2 a q := ⟨j 0, j 1, eq_ix2 j⟩
  show k0_pay3 (F := Ideal) (iblk0 V c 0 (pt t)) (iblk0 V c 1 (pt t)) (iblk0 V c 2 (pt t)) (iblk0 V c 3 (pt t)) (ix2 a q)
    = sum_arr (V c main_arg0) (V c main_v13) (V c main_v14) (V c main_v17) (((cfg0.win 5).blk (pt t)).view.emb (ix2 a q))
  have e : ((cfg0.win 5).blk (pt t)).view.emb (ix2 a q) = ix2 (statRow t a) q := funext fun b => Fin.ext (by
    match b with
    | ⟨0, _⟩ => show win0_5.index (pt t) (0 : Fin 2) * 8 + 1 * a.val = t.val * 8 + a.val; rw [e50]; show t.val * 8 + 1 * a.val = _; omega
    | ⟨1, _⟩ => show win0_5.index (pt t) (1 : Fin 2) * 128 + 1 * q.val = q.val; rw [e51]; omega)
  rw [e]
  unfold sum_arr
  rw [statArr_blk]
  refine (pay0_3 (iblk0 V c 0 (pt t)) (iblk0 V c 1 (pt t)) (iblk0 V c 2 (pt t)) (iblk0 V c 3 (pt t)) a q).trans ?_
  refine if_congr Iff.rfl (Finset.sum_congr rfl fun p _ => pay_h1 V c t p q) rfl

/-- Point `t` writes back block `t` of the sum-of-squares statistics. -/
theorem flushed6 (c : Dev nD) (t : Fin 25) :
    (dat0 V c).flushed 6 (pt t) = ((cfg0.win 6).blk (pt t)).view.read (Elt Ideal)
      (sumsq_arr (V c main_arg0) (V c main_v13) (V c main_v14) (V c main_v17)) := by
  obtain ⟨-, -, -, -, -, -, -, -, -, -, -, -, e60, e61, -⟩ := idx_facts (pt t)
  show (cfg0.win 6).cut (grid0.coords (pt t)) ((dat0 V c).after 6 (pt t)) = _
  rw [after0_6]
  unfold out0_6
  rw [View.canon_unit_zero hz]
  simp only [View.ld_unit_zero (S := S4000x128) hz, View.ld_unit_zero (S := S128x128) hz, View.ld_unit_zero (S := S1x128) hz]
  funext j
  obtain ⟨a, q, rfl⟩ : ∃ (a : Fin 8) (q : Fin 128), j = ix2 a q := ⟨j 0, j 1, eq_ix2 j⟩
  show k0_pay4 (F := Ideal) (iblk0 V c 0 (pt t)) (iblk0 V c 1 (pt t)) (iblk0 V c 2 (pt t)) (iblk0 V c 3 (pt t)) (ix2 a q)
    = sumsq_arr (V c main_arg0) (V c main_v13) (V c main_v14) (V c main_v17) (((cfg0.win 6).blk (pt t)).view.emb (ix2 a q))
  have e : ((cfg0.win 6).blk (pt t)).view.emb (ix2 a q) = ix2 (statRow t a) q := funext fun b => Fin.ext (by
    match b with
    | ⟨0, _⟩ => show win0_6.index (pt t) (0 : Fin 2) * 8 + 1 * a.val = t.val * 8 + a.val; rw [e60]; show t.val * 8 + 1 * a.val = _; omega
    | ⟨1, _⟩ => show win0_6.index (pt t) (1 : Fin 2) * 128 + 1 * q.val = q.val; rw [e61]; omega)
  rw [e]
  unfold sumsq_arr
  rw [statArr_blk]
  refine (pay0_4 (iblk0 V c 0 (pt t)) (iblk0 V c 1 (pt t)) (iblk0 V c 2 (pt t)) (iblk0 V c 3 (pt t)) a q).trans ?_
  refine if_congr Iff.rfl (Finset.sum_congr rfl fun p _ => ?_) rfl
  rw [pay_h1 V c t p q]

/-- An index of the layer-output array is in point `t`'s block iff each coordinate is in the block's range. -/
theorem mem_blk4 (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v23_0).slice (win0_4.rect t)).set ↔ _
  rw [View.set_slice_whole, Rect.mem_set_unit]
  exact Iff.rfl

theorem mem_blk5 (t : Fin cfg0.N) (i : S200x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v23_1).slice (win0_5.rect t)).set ↔ _
  rw [View.set_slice_whole, Rect.mem_set_unit]
  exact Iff.rfl

theorem mem_blk6 (t : Fin cfg0.N) (i : S200x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v23_2).slice (win0_6.rect t)).set ↔ _
  rw [View.set_slice_whole, Rect.mem_set_unit]
  exact Iff.rfl

/-- Row `R` of the layer output lies in block `R / 4000`. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨-, -, -, -, -, -, -, -, e40, e41, -⟩ := idx_facts (pt ⟨(i 0).val / 4000, by omega⟩)
  refine ⟨pt ⟨(i 0).val / 4000, by omega⟩, flush0_4 _, ?_⟩
  rw [mem_blk4]
  intro a
  match a with
  | ⟨0, _⟩ =>
    show win0_4.index (pt ⟨(i 0).val / 4000, _⟩) (0 : Fin 2) * 4000 ≤ (i 0).val ∧ (i 0).val < win0_4.index (pt ⟨(i 0).val / 4000, _⟩) (0 : Fin 2) * 4000 + 4000
    rw [e40]; show (i 0).val / 4000 * 4000 ≤ (i 0).val ∧ (i 0).val < (i 0).val / 4000 * 4000 + 4000; omega
  | ⟨1, _⟩ =>
    show win0_4.index (pt ⟨(i 0).val / 4000, _⟩) (1 : Fin 2) * 128 ≤ (i 1).val ∧ (i 1).val < win0_4.index (pt ⟨(i 0).val / 4000, _⟩) (1 : Fin 2) * 128 + 128
    rw [e41]; omega

/-- Row `Q` of a statistics array lies in block `Q / 8`. -/
theorem cover5 (i : S200x128.Idx) : ∃ t : Fin cfg0.N, (cfg0.win 5).flush t = true ∧ i ∈ ((cfg0.win 5).blk t).view.set := by
  have hi0 : (i 0).val < 200 := (i 0).isLt
  have hi1 : (i 1).val < 128 := (i 1).isLt
  obtain ⟨-, -, -, -, -, -, -, -, -, -, e50, e51, -⟩ := idx_facts (pt ⟨(i 0).val / 8, by omega⟩)
  refine ⟨pt ⟨(i 0).val / 8, by omega⟩, flush0_5 _, ?_⟩
  rw [mem_blk5]
  intro a
  match a with
  | ⟨0, _⟩ =>
    show win0_5.index (pt ⟨(i 0).val / 8, _⟩) (0 : Fin 2) * 8 ≤ (i 0).val ∧ (i 0).val < win0_5.index (pt ⟨(i 0).val / 8, _⟩) (0 : Fin 2) * 8 + 8
    rw [e50]; show (i 0).val / 8 * 8 ≤ (i 0).val ∧ (i 0).val < (i 0).val / 8 * 8 + 8; omega
  | ⟨1, _⟩ =>
    show win0_5.index (pt ⟨(i 0).val / 8, _⟩) (1 : Fin 2) * 128 ≤ (i 1).val ∧ (i 1).val < win0_5.index (pt ⟨(i 0).val / 8, _⟩) (1 : Fin 2) * 128 + 128
    rw [e51]; omega

theorem cover6 (i : S200x128.Idx) : ∃ t : Fin cfg0.N, (cfg0.win 6).flush t = true ∧ i ∈ ((cfg0.win 6).blk t).view.set := by
  have hi0 : (i 0).val < 200 := (i 0).isLt
  have hi1 : (i 1).val < 128 := (i 1).isLt
  obtain ⟨-, -, -, -, -, -, -, -, -, -, -, -, e60, e61, -⟩ := idx_facts (pt ⟨(i 0).val / 8, by omega⟩)
  refine ⟨pt ⟨(i 0).val / 8, by omega⟩, flush0_6 _, ?_⟩
  rw [mem_blk6]
  intro a
  match a with
  | ⟨0, _⟩ =>
    show win0_6.index (pt ⟨(i 0).val / 8, _⟩) (0 : Fin 2) * 8 ≤ (i 0).val ∧ (i 0).val < win0_6.index (pt ⟨(i 0).val / 8, _⟩) (0 : Fin 2) * 8 + 8
    rw [e60]; show (i 0).val / 8 * 8 ≤ (i 0).val ∧ (i 0).val < (i 0).val / 8 * 8 + 8; omega
  | ⟨1, _⟩ =>
    show win0_6.index (pt ⟨(i 0).val / 8, _⟩) (1 : Fin 2) * 128 ≤ (i 1).val ∧ (i 1).val < win0_6.index (pt ⟨(i 0).val / 8, _⟩) (1 : Fin 2) * 128 + 128
    rw [e61]; omega

/-- THE ARRAYS after the region: one function each of the arrays the region found. -/
theorem final4 (c : Dev nD) : (dat0 V c).arrAt 4 cfg0.N = h1_arr (V c main_arg0) (V c main_v13) (V c main_v14) (V c main_v17) :=
  (dat0 V c).arrAt_eq_of_cover 4 _ (fun t _ => by obtain ⟨t', rfl⟩ := pt_surj t; exact flushed4 V c t') cover4

theorem final5 (c : Dev nD) : (dat0 V c).arrAt 5 cfg0.N = sum_arr (V c main_arg0) (V c main_v13) (V c main_v14) (V c main_v17) :=
  (dat0 V c).arrAt_eq_of_cover 5 _ (fun t _ => by obtain ⟨t', rfl⟩ := pt_surj t; exact flushed5 V c t') cover5

theorem final6 (c : Dev nD) : (dat0 V c).arrAt 6 cfg0.N = sumsq_arr (V c main_arg0) (V c main_v13) (V c main_v14) (V c main_v17) :=
  (dat0 V c).arrAt_eq_of_cover 6 _ (fun t _ => by obtain ⟨t', rfl⟩ := pt_surj t; exact flushed6 V c t') cover6

end Cert.Gin.K0

end
-- ==== Proof.KRegion1.lean ====
/-
  The second kernel region, read as whole arrays.

  The region walks 25 blocks of 4000 rows.  At block t it reads rows 4000·t … 4000·t+3999 of the first layer's
  output, the whole rows of its column mean, column variance, scale and shift, the whole (transposed) weight matrix
  and the bias row, and writes
    • rows 4000·t … of the second linear layer's output  H2 = max((h − μ)·(v + ε)^(−1/2)·γ + β, 0)·Wt + b,
    • an 8-row block of a 200-row array whose first row is the column sums of those 4000 rows of H2 and whose
      other seven rows are zero,
    • the same with the sums of squares.
  Every row of each output array lies in exactly one block, so after the region each output array is ONE function
  of the arrays the region found (its entry contents): `h2_arr`, `sum_arr`, `sumsq_arr`.
-/
import proofs.«113272_j71416716197907_2_alg».proof.Proof.Gen.KernelIdeal.Frame
import proofs.«113272_j71416716197907_2_alg».proof.Proof.Spec
import proofs.«113272_j71416716197907_2_alg».proof.Proof.Blocks
import proofs.«113272_j71416716197907_2_alg».proof.Proof.KBody
import Idealize.ShloMosaic.Lib.Pipeline.Value
import Idealize.ShloMosaic.Lib.ValueIdx

set_option maxRecDepth 16384

noncomputable section

namespace Cert.Gin.K1

open Idealize.ShloMosaic Idealize.ShloMosaic.ValueIdx Idealize.ShloMosaic.TcCoe Idealize.SL.Sem
open Cert.KernelIdeal Cert.KernelIdeal.Gen Cert.Gin Cert.Gin.KBody
open Idealize.ShloMosaic.Pipeline (Dat)

variable (V : (c : Dev nD) → (b : Ref sig .tc) → Buf (Elt Ideal) ((c : Thread nD τ).loc b))

/-! ## The three output arrays as functions of the region's seven input arrays -/

/-- The second linear layer's output at row `r`, column `q`: the first layer's output, normalised with the given
    column mean and variance, scaled, shifted and clipped at zero, through the linear map. -/
def h2 (h : S100000x128.Idx → EReal) (μ v g be : S1x128.Idx → EReal) (wt : S128x128.Idx → EReal) (b : S1x128.Idx → EReal) (r : Fin 100000) (q : Fin 128) : EReal :=
  (∑ k : Fin 128, bnAt (h (ix2 r k)) (μ (ix2 0 k)) (v (ix2 0 k)) (g (ix2 0 k)) (be (ix2 0 k)) * wt (ix2 k q)) + b (ix2 0 q)

def h2_arr (h : S100000x128.Idx → EReal) (μ v g be : S1x128.Idx → EReal) (wt : S128x128.Idx → EReal) (b : S1x128.Idx → EReal) : S100000x128.Idx → EReal :=
  fun i => h2 h μ v g be wt b (i 0) (i 1)

/-- The column sums of each block of 4000 rows of the layer's output, as a 200-row statistics array. -/
def sum_arr (h : S100000x128.Idx → EReal) (μ v g be : S1x128.Idx → EReal) (wt : S128x128.Idx → EReal) (b : S1x128.Idx → EReal) : S200x128.Idx → EReal :=
  statArr fun t q => ∑ p : Fin 4000, h2 h μ v g be wt b (rowOf t p) q

/-- The column sums of squares of each block of 4000 rows of the layer's output, as a 200-row statistics array. -/
def sumsq_arr (h : S100000x128.Idx → EReal) (μ v g be : S1x128.Idx → EReal) (wt : S128x128.Idx → EReal) (b : S1x128.Idx → EReal) : S200x128.Idx → EReal :=
  statArr fun t q => ∑ p : Fin 4000, h2 h μ v g be wt b (rowOf t p) q * h2 h μ v g be wt b (rowOf t p) q

/-! ## The index maps, decided over the 25 grid points -/

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ t.val < 25 :=
  (by decide +kernel : ∀ t : Fin grid1.N, _)

/-- The grid point of block `t`. -/
def pt (t : Fin 25) : Fin cfg1.N := ⟨t.val, by have := t.isLt; show t.val < 25; omega⟩

theorem pt_surj (t : Fin cfg1.N) : ∃ t' : Fin 25, t = pt t' := by
  obtain ⟨e00, e01, e10, e11, e20, e21, e30, e31, e40, e41, e50, e51, e60, e61, e70, e71, e80, e81, e90, e91, hlt⟩ := idx_facts t
  exact ⟨⟨t.val, hlt⟩, Fin.ext rfl⟩

/-! ## The input blocks, read where the point's rectangle says -/

/-- Block `t` of the first layer's output (window 0): rows `4000·t …` of the array the region found. -/
theorem blk0 (c : Dev nD) (t : Fin 25) (p : Fin 4000) (k : Fin 128) :
    iblk1 V c 0 (pt t) (ix2 p k) = V c main_v23_0 (ix2 (rowOf t p) k) := by
  obtain ⟨e00, e01, e10, e11, e20, e21, e30, e31, e40, e41, e50, e51, e60, e61, e70, e71, e80, e81, e90, e91, hlt⟩ := idx_facts (pt t)
  show V c main_v23_0 (((cfg1.win 0).blk (pt t)).view.emb (ix2 p k)) = V c main_v23_0 (ix2 (rowOf t p) k)
  refine congrArg _ (funext fun a => Fin.ext ?_)
  match a with
  | ⟨0, _⟩ => show win1_0.index (pt t) (0 : Fin 2) * 4000 + 1 * p.val = t.val * 4000 + p.val; rw [e00]; show t.val * 4000 + 1 * p.val = _; omega
  | ⟨1, _⟩ => show win1_0.index (pt t) (1 : Fin 2) * 128 + 1 * k.val = k.val; rw [e01]; omega

/-- The row of column means (window 1) is read whole at every point. -/
theorem blk1 (c : Dev nD) (t : Fin 25) (q : Fin 128) :
    iblk1 V c 1 (pt t) (ix2 0 q) = V c main_v29 (ix2 0 q) := by
  obtain ⟨e00, e01, e10, e11, e20, e21, e30, e31, e40, e41, e50, e51, e60, e61, e70, e71, e80, e81, e90, e91, hlt⟩ := idx_facts (pt t)
  show V c main_v29 (((cfg1.win 1).blk (pt t)).view.emb (ix2 0 q)) = V c main_v29 (ix2 0 q)
  refine congrArg _ (funext fun a => Fin.ext ?_)
  match a with
  | ⟨0, _⟩ => show win1_1.index (pt t) (0 : Fin 2) * 1 + 1 * 0 = 0; rw [e10]
  | ⟨1, _⟩ => show win1_1.index (pt t) (1 : Fin 2) * 128 + 1 * q.val = q.val; rw [e11]; omega

/-- The row of column variances (window 2) is read whole at every point. -/
theorem blk2 (c : Dev nD) (t : Fin 25) (q : Fin 128) :
    iblk1 V c 2 (pt t) (ix2 0 q) = V c main_v33 (ix2 0 q) := by
  obtain ⟨e00, e01, e10, e11, e20, e21, e30, e31, e40, e41, e50, e51, e60, e61, e70, e71, e80, e81, e90, e91, hlt⟩ := idx_facts (pt t)
  show V c main_v33 (((cfg1.win 2).blk (pt t)).view.emb (ix2 0 q)) = V c main_v33 (ix2 0 q)
  refine congrArg _ (funext fun a => Fin.ext ?_)
  match a with
  | ⟨0, _⟩ => show win1_2.index (pt t) (0 : Fin 2) * 1 + 1 * 0 = 0; rw [e20]
  | ⟨1, _⟩ => show win1_2.index (pt t) (1 : Fin 2) * 128 + 1 * q.val = q.val; rw [e21]; omega

/-- The scale row (window 3) is read whole at every point. -/
theorem blk3 (c : Dev nD) (t : Fin 25) (q : Fin 128) :
    iblk1 V c 3 (pt t) (ix2 0 q) = V c main_v18 (ix2 0 q) := by
  obtain ⟨e00, e01, e10, e11, e20, e21, e30, e31, e40, e41, e50, e51, e60, e61, e70, e71, e80, e81, e90, e91, hlt⟩ := idx_facts (pt t)
  show V c main_v18 (((cfg1.win 3).blk (pt t)).view.emb (ix2 0 q)) = V c main_v18 (ix2 0 q)
  refine congrArg _ (funext fun a => Fin.ext ?_)
  match a with
  | ⟨0, _⟩ => show win1_3.index (pt t) (0 : Fin 2) * 1 + 1 * 0 = 0; rw [e30]
  | ⟨1, _⟩ => show win1_3.index (pt t) (1 : Fin 2) * 128 + 1 * q.val = q.val; rw [e31]; omega

/-- The shift row (window 4) is read whole at every point. -/
theorem blk4 (c : Dev nD) (t : Fin 25) (q : Fin 128) :
    iblk1 V c 4 (pt t) (ix2 0 q) = V c main_v19 (ix2 0 q) := by
  obtain ⟨e00, e01, e10, e11, e20, e21, e30, e31, e40, e41, e50, e51, e60, e61, e70, e71, e80, e81, e90, e91, hlt⟩ := idx_facts (pt t)
  show V c main_v19 (((cfg1.win 4).blk (pt t)).view.emb (ix2 0 q)) = V c main_v19 (ix2 0 q)
  refine congrArg _ (funext fun a => Fin.ext ?_)
  match a with
  | ⟨0, _⟩ => show win1_4.index (pt t) (0 : Fin 2) * 1 + 1 * 0 = 0; rw [e40]
  | ⟨1, _⟩ => show win1_4.index (pt t) (1 : Fin 2) * 128 + 1 * q.val = q.val; rw [e41]; omega

/-- The weight matrix (window 5) is read whole at every point. -/
theorem blk5 (c : Dev nD) (t : Fin 25) (k q : Fin 128) :
    iblk1 V c 5 (pt t) (ix2 k q) = V c main_v15 (ix2 k q) := by
  obtain ⟨e00, e01, e10, e11, e20, e21, e30, e31, e40, e41, e50, e51, e60, e61, e70, e71, e80, e81, e90, e91, hlt⟩ := idx_facts (pt t)
  show V c main_v15 (((cfg1.win 5).blk (pt t)).view.emb (ix2 k q)) = V c main_v15 (ix2 k q)
  refine congrArg _ (funext fun a => Fin.ext ?_)
  match a with
  | ⟨0, _⟩ => show win1_5.index (pt t) (0 : Fin 2) * 128 + 1 * k.val = k.val; rw [e50]; omega
  | ⟨1, _⟩ => show win1_5.index (pt t) (1 : Fin 2) * 128 + 1 * q.val = q.val; rw [e51]; omega

/-- The bias row (window 6) is read whole at every point. -/
theorem blk6 (c : Dev nD) (t : Fin 25) (q : Fin 128) :
    iblk1 V c 6 (pt t) (ix2 0 q) = V c main_v20 (ix2 0 q) := by
  obtain ⟨e00, e01, e10, e11, e20, e21, e30, e31, e40, e41, e50, e51, e60, e61, e70, e71, e80, e81, e90, e91, hlt⟩ := idx_facts (pt t)
  show V c main_v20 (((cfg1.win 6).blk (pt t)).view.emb (ix2 0 q)) = V c main_v20 (ix2 0 q)
  refine congrArg _ (funext fun a => Fin.ext ?_)
  match a with
  | ⟨0, _⟩ => show win1_6.index (pt t) (0 : Fin 2) * 1 + 1 * 0 = 0; rw [e60]
  | ⟨1, _⟩ => show win1_6.index (pt t) (1 : Fin 2) * 128 + 1 * q.val = q.val; rw [e61]; omega

/-- The body's linear-layer payload at block `t`, row `p`, column `q` is the layer's output at row `4000·t + p`. -/
theorem pay_h2 (c : Dev nD) (t : Fin 25) (p : Fin 4000) (q : Fin 128) :
    k1_pay3 (F := Ideal) (iblk1 V c 0 (pt t)) (iblk1 V c 1 (pt t)) (iblk1 V c 2 (pt t)) (iblk1 V c 3 (pt t)) (iblk1 V c 4 (pt t)) (iblk1 V c 5 (pt t)) (iblk1 V c 6 (pt t)) (ix2 p q)
      = h2 (V c main_v23_0) (V c main_v29) (V c main_v33) (V c main_v18) (V c main_v19) (V c main_v15) (V c main_v20) (rowOf t p) q := by
  refine (pay1_3 (iblk1 V c 0 (pt t)) (iblk1 V c 1 (pt t)) (iblk1 V c 2 (pt t)) (iblk1 V c 3 (pt t)) (iblk1 V c 4 (pt t)) (iblk1 V c 5 (pt t)) (iblk1 V c 6 (pt t)) p q).trans ?_
  unfold h2
  rw [blk6 V c t q]
  refine congrArg (· + _) (Finset.sum_congr rfl fun k _ => ?_)
  rw [blk0 V c t p k, blk1 V c t k, blk2 V c t k, blk3 V c t k, blk4 V c t k, blk5 V c t k q]

/-! ## What a point writes back, the cover, and the arrays after the region -/

/-- Point `t` writes back block `t` of the linear layer's output. -/
theorem flushed7 (c : Dev nD) (t : Fin 25) :
    (dat1 V c).flushed 7 (pt t) = ((cfg1.win 7).blk (pt t)).view.read (Elt Ideal)
      (h2_arr (V c main_v23_0) (V c main_v29) (V c main_v33) (V c main_v18) (V c main_v19) (V c main_v15) (V c main_v20)) := by
  obtain ⟨e00, e01, e10, e11, e20, e21, e30, e31, e40, e41, e50, e51, e60, e61, e70, e71, e80, e81, e90, e91, hlt⟩ := idx_facts (pt t)
  show (cfg1.win 7).cut (grid1.coords (pt t)) ((dat1 V c).after 7 (pt t)) = _
  rw [after1_7]
  unfold out1_7
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k1_pay4 (F := Ideal) (iblk1 V c 0 (pt t)) (iblk1 V c 1 (pt t)) (iblk1 V c 2 (pt t)) (iblk1 V c 3 (pt t)) (iblk1 V c 4 (pt t)) (iblk1 V c 5 (pt t)) (iblk1 V c 6 (pt t)) (ix2 p q)
    = h2_arr (V c main_v23_0) (V c main_v29) (V c main_v33) (V c main_v18) (V c main_v19) (V c main_v15) (V c main_v20) (((cfg1.win 7).blk (pt t)).view.emb (ix2 p q))
  have e : ((cfg1.win 7).blk (pt t)).view.emb (ix2 p q) = ix2 (rowOf t p) q := funext fun a => Fin.ext (by
    match a with
    | ⟨0, _⟩ => show win1_7.index (pt t) (0 : Fin 2) * 4000 + 1 * p.val = t.val * 4000 + p.val; rw [e70]; show t.val * 4000 + 1 * p.val = _; omega
    | ⟨1, _⟩ => show win1_7.index (pt t) (1 : Fin 2) * 128 + 1 * q.val = q.val; rw [e71]; omega)
  rw [e]
  exact (pay1_4 (iblk1 V c 0 (pt t)) (iblk1 V c 1 (pt t)) (iblk1 V c 2 (pt t)) (iblk1 V c 3 (pt t)) (iblk1 V c 4 (pt t)) (iblk1 V c 5 (pt t)) (iblk1 V c 6 (pt t)) p q).trans (pay_h2 V c t p q)

/-- Point `t` writes back block `t` of the column-sum statistics: the row of column sums in the first of the block's eight rows, zero in the others. -/
theorem flushed8 (c : Dev nD) (t : Fin 25) :
    (dat1 V c).flushed 8 (pt t) = ((cfg1.win 8).blk (pt t)).view.read (Elt Ideal)
      (sum_arr (V c main_v23_0) (V c main_v29) (V c main_v33) (V c main_v18) (V c main_v19) (V c main_v15) (V c main_v20)) := by
  obtain ⟨e00, e01, e10, e11, e20, e21, e30, e31, e40, e41, e50, e51, e60, e61, e70, e71, e80, e81, e90, e91, hlt⟩ := idx_facts (pt t)
  show (cfg1.win 8).cut (grid1.coords (pt t)) ((dat1 V c).after 8 (pt t)) = _
  rw [after1_8]
  unfold out1_8
  rw [View.canon_unit_zero hz]
  simp only [View.ld_unit_zero (S := S4000x128) hz, View.ld_unit_zero (S := S128x128) hz, View.ld_unit_zero (S := S1x128) hz]
  funext j
  obtain ⟨a, q, rfl⟩ : ∃ (a : Fin 8) (q : Fin 128), j = ix2 a q := ⟨j 0, j 1, eq_ix2 j⟩
  show k1_pay1 (F := Ideal) (k1_pay5 (F := Ideal) (iblk1 V c 0 (pt t)) (iblk1 V c 1 (pt t)) (iblk1 V c 2 (pt t)) (iblk1 V c 3 (pt t)) (iblk1 V c 4 (pt t)) (iblk1 V c 5 (pt t)) (iblk1 V c 6 (pt t))) (ix2 a q)
    = sum_arr (V c main_v23_0) (V c main_v29) (V c main_v33) (V c main_v18) (V c main_v19) (V c main_v15) (V c main_v20) (((cfg1.win 8).blk (pt t)).view.emb (ix2 a q))
  have e : ((cfg1.win 8).blk (pt t)).view.emb (ix2 a q) = ix2 (statRow t a) q := funext fun b => Fin.ext (by
    match b with
    | ⟨0, _⟩ => show win1_8.index (pt t) (0 : Fin 2) * 8 + 1 * a.val = t.val * 8 + a.val; rw [e80]; show t.val * 8 + 1 * a.val = _; omega
    | ⟨1, _⟩ => show win1_8.index (pt t) (1 : Fin 2) * 128 + 1 * q.val = q.val; rw [e81]; omega)
  rw [e]
  unfold sum_arr
  rw [statArr_blk]
  refine (pay1_1 (k1_pay5 (F := Ideal) (iblk1 V c 0 (pt t)) (iblk1 V c 1 (pt t)) (iblk1 V c 2 (pt t)) (iblk1 V c 3 (pt t)) (iblk1 V c 4 (pt t)) (iblk1 V c 5 (pt t)) (iblk1 V c 6 (pt t))) a q).trans ?_
  refine if_congr Iff.rfl ?_ rfl
  exact (pay1_5 (iblk1 V c 0 (pt t)) (iblk1 V c 1 (pt t)) (iblk1 V c 2 (pt t)) (iblk1 V c 3 (pt t)) (iblk1 V c 4 (pt t)) (iblk1 V c 5 (pt t)) (iblk1 V c 6 (pt t)) q).trans (Finset.sum_congr rfl fun p _ => pay_h2 V c t p q)

/-- Point `t` writes back block `t` of the sum-of-squares statistics. -/
theorem flushed9 (c : Dev nD) (t : Fin 25) :
    (dat1 V c).flushed 9 (pt t) = ((cfg1.win 9).blk (pt t)).view.read (Elt Ideal)
      (sumsq_arr (V c main_v23_0) (V c main_v29) (V c main_v33) (V c main_v18) (V c main_v19) (V c main_v15) (V c main_v20)) := by
  obtain ⟨e00, e01, e10, e11, e20, e21, e30, e31, e40, e41, e50, e51, e60, e61, e70, e71, e80, e81, e90, e91, hlt⟩ := idx_facts (pt t)
  show (cfg1.win 9).cut (grid1.coords (pt t)) ((dat1 V c).after 9 (pt t)) = _
  rw [after1_9]
  unfold out1_9
  rw [View.canon_unit_zero hz]
  simp only [View.ld_unit_zero (S := S4000x128) hz, View.ld_unit_zero (S := S128x128) hz, View.ld_unit_zero (S := S1x128) hz]
  funext j
  obtain ⟨a, q, rfl⟩ : ∃ (a : Fin 8) (q : Fin 128), j = ix2 a q := ⟨j 0, j 1, eq_ix2 j⟩
  show k1_pay2 (F := Ideal) (k1_pay6 (F := Ideal) (iblk1 V c 0 (pt t)) (iblk1 V c 1 (pt t)) (iblk1 V c 2 (pt t)) (iblk1 V c 3 (pt t)) (iblk1 V c 4 (pt t)) (iblk1 V c 5 (pt t)) (iblk1 V c 6 (pt t))) (ix2 a q)
    = sumsq_arr (V c main_v23_0) (V c main_v29) (V c main_v33) (V c main_v18) (V c main_v19) (V c main_v15) (V c main_v20) (((cfg1.win 9).blk (pt t)).view.emb (ix2 a q))
  have e : ((cfg1.win 9).blk (pt t)).view.emb (ix2 a q) = ix2 (statRow t a) q := funext fun b => Fin.ext (by
    match b with
    | ⟨0, _⟩ => show win1_9.index (pt t) (0 : Fin 2) * 8 + 1 * a.val = t.val * 8 + a.val; rw [e90]; show t.val * 8 + 1 * a.val = _; omega
    | ⟨1, _⟩ => show win1_9.index (pt t) (1 : Fin 2) * 128 + 1 * q.val = q.val; rw [e91]; omega)
  rw [e]
  unfold sumsq_arr
  rw [statArr_blk]
  refine (pay1_2 (k1_pay6 (F := Ideal) (iblk1 V c 0 (pt t)) (iblk1 V c 1 (pt t)) (iblk1 V c 2 (pt t)) (iblk1 V c 3 (pt t)) (iblk1 V c 4 (pt t)) (iblk1 V c 5 (pt t)) (iblk1 V c 6 (pt t))) a q).trans ?_
  refine if_congr Iff.rfl (Finset.sum_congr rfl fun p _ => ?_) rfl
  refine (pay1_6 (iblk1 V c 0 (pt t)) (iblk1 V c 1 (pt t)) (iblk1 V c 2 (pt t)) (iblk1 V c 3 (pt t)) (iblk1 V c 4 (pt t)) (iblk1 V c 5 (pt t)) (iblk1 V c 6 (pt t)) p q).trans ?_
  rw [pay_h2 V c t p q]

/-- An index of the layer-output array is in point `t`'s block iff each coordinate is in the block's range. -/
theorem mem_blk7 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v34_0).slice (win1_7.rect t)).set ↔ _
  rw [View.set_slice_whole, Rect.mem_set_unit]
  exact Iff.rfl

theorem mem_blk8 (t : Fin cfg1.N) (i : S200x128.Idx) :
    i ∈ ((cfg1.win 8).blk t).view.set ↔ ∀ a : Fin 2, win1_8.index t a * S8x128.size a ≤ (i a).val ∧ (i a).val < win1_8.index t a * S8x128.size a + S8x128.size a := by
  show i ∈ ((View.whole main_v34_1).slice (win1_8.rect t)).set ↔ _
  rw [View.set_slice_whole, Rect.mem_set_unit]
  exact Iff.rfl

theorem mem_blk9 (t : Fin cfg1.N) (i : S200x128.Idx) :
    i ∈ ((cfg1.win 9).blk t).view.set ↔ ∀ a : Fin 2, win1_9.index t a * S8x128.size a ≤ (i a).val ∧ (i a).val < win1_9.index t a * S8x128.size a + S8x128.size a := by
  show i ∈ ((View.whole main_v34_2).slice (win1_9.rect t)).set ↔ _
  rw [View.set_slice_whole, Rect.mem_set_unit]
  exact Iff.rfl

/-- Row `R` of the layer output lies in block `R / 4000`. -/
theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  obtain ⟨e00, e01, e10, e11, e20, e21, e30, e31, e40, e41, e50, e51, e60, e61, e70, e71, e80, e81, e90, e91, hlt⟩ := idx_facts (pt ⟨(i 0).val / 4000, by omega⟩)
  refine ⟨pt ⟨(i 0).val / 4000, by omega⟩, flush1_7 _, ?_⟩
  rw [mem_blk7]
  intro a
  match a with
  | ⟨0, _⟩ =>
    show win1_7.index (pt ⟨(i 0).val / 4000, _⟩) (0 : Fin 2) * 4000 ≤ (i 0).val ∧ (i 0).val < win1_7.index (pt ⟨(i 0).val / 4000, _⟩) (0 : Fin 2) * 4000 + 4000
    rw [e70]; show (i 0).val / 4000 * 4000 ≤ (i 0).val ∧ (i 0).val < (i 0).val / 4000 * 4000 + 4000; omega
  | ⟨1, _⟩ =>
    show win1_7.index (pt ⟨(i 0).val / 4000, _⟩) (1 : Fin 2) * 128 ≤ (i 1).val ∧ (i 1).val < win1_7.index (pt ⟨(i 0).val / 4000, _⟩) (1 : Fin 2) * 128 + 128
    rw [e71]; omega

/-- Row `Q` of a statistics array lies in block `Q / 8`. -/
theorem cover8 (i : S200x128.Idx) : ∃ t : Fin cfg1.N, (cfg1.win 8).flush t = true ∧ i ∈ ((cfg1.win 8).blk t).view.set := by
  have hi0 : (i 0).val < 200 := (i 0).isLt
  have hi1 : (i 1).val < 128 := (i 1).isLt
  obtain ⟨e00, e01, e10, e11, e20, e21, e30, e31, e40, e41, e50, e51, e60, e61, e70, e71, e80, e81, e90, e91, hlt⟩ := idx_facts (pt ⟨(i 0).val / 8, by omega⟩)
  refine ⟨pt ⟨(i 0).val / 8, by omega⟩, flush1_8 _, ?_⟩
  rw [mem_blk8]
  intro a
  match a with
  | ⟨0, _⟩ =>
    show win1_8.index (pt ⟨(i 0).val / 8, _⟩) (0 : Fin 2) * 8 ≤ (i 0).val ∧ (i 0).val < win1_8.index (pt ⟨(i 0).val / 8, _⟩) (0 : Fin 2) * 8 + 8
    rw [e80]; show (i 0).val / 8 * 8 ≤ (i 0).val ∧ (i 0).val < (i 0).val / 8 * 8 + 8; omega
  | ⟨1, _⟩ =>
    show win1_8.index (pt ⟨(i 0).val / 8, _⟩) (1 : Fin 2) * 128 ≤ (i 1).val ∧ (i 1).val < win1_8.index (pt ⟨(i 0).val / 8, _⟩) (1 : Fin 2) * 128 + 128
    rw [e81]; omega

theorem cover9 (i : S200x128.Idx) : ∃ t : Fin cfg1.N, (cfg1.win 9).flush t = true ∧ i ∈ ((cfg1.win 9).blk t).view.set := by
  have hi0 : (i 0).val < 200 := (i 0).isLt
  have hi1 : (i 1).val < 128 := (i 1).isLt
  obtain ⟨e00, e01, e10, e11, e20, e21, e30, e31, e40, e41, e50, e51, e60, e61, e70, e71, e80, e81, e90, e91, hlt⟩ := idx_facts (pt ⟨(i 0).val / 8, by omega⟩)
  refine ⟨pt ⟨(i 0).val / 8, by omega⟩, flush1_9 _, ?_⟩
  rw [mem_blk9]
  intro a
  match a with
  | ⟨0, _⟩ =>
    show win1_9.index (pt ⟨(i 0).val / 8, _⟩) (0 : Fin 2) * 8 ≤ (i 0).val ∧ (i 0).val < win1_9.index (pt ⟨(i 0).val / 8, _⟩) (0 : Fin 2) * 8 + 8
    rw [e90]; show (i 0).val / 8 * 8 ≤ (i 0).val ∧ (i 0).val < (i 0).val / 8 * 8 + 8; omega
  | ⟨1, _⟩ =>
    show win1_9.index (pt ⟨(i 0).val / 8, _⟩) (1 : Fin 2) * 128 ≤ (i 1).val ∧ (i 1).val < win1_9.index (pt ⟨(i 0).val / 8, _⟩) (1 : Fin 2) * 128 + 128
    rw [e91]; omega

/-- THE ARRAYS after the region: one function each of the arrays the region found. -/
theorem final7 (c : Dev nD) : (dat1 V c).arrAt 7 cfg1.N = h2_arr (V c main_v23_0) (V c main_v29) (V c main_v33) (V c main_v18) (V c main_v19) (V c main_v15) (V c main_v20) :=
  (dat1 V c).arrAt_eq_of_cover 7 _ (fun t _ => by obtain ⟨t', rfl⟩ := pt_surj t; exact flushed7 V c t') cover7

theorem final8 (c : Dev nD) : (dat1 V c).arrAt 8 cfg1.N = sum_arr (V c main_v23_0) (V c main_v29) (V c main_v33) (V c main_v18) (V c main_v19) (V c main_v15) (V c main_v20) :=
  (dat1 V c).arrAt_eq_of_cover 8 _ (fun t _ => by obtain ⟨t', rfl⟩ := pt_surj t; exact flushed8 V c t') cover8

theorem final9 (c : Dev nD) : (dat1 V c).arrAt 9 cfg1.N = sumsq_arr (V c main_v23_0) (V c main_v29) (V c main_v33) (V c main_v18) (V c main_v19) (V c main_v15) (V c main_v20) :=
  (dat1 V c).arrAt_eq_of_cover 9 _ (fun t _ => by obtain ⟨t', rfl⟩ := pt_surj t; exact flushed9 V c t') cover9

end Cert.Gin.K1

end
-- ==== Proof.KRegion2.lean ====
/-
  The third kernel region, read as a whole array.

  The region walks 25 blocks of 4000 rows.  At block t it reads rows 4000·t … 4000·t+3999 of the second linear
  layer's output, the whole rows of mean, variance, scale and shift, and the whole (transposed) weight matrix, and
  writes rows 4000·t … of
    out = max (Σ_k max ((h − μ_k)·(v_k + ε)^(-1/2)·γ_k + β_k, 0) · Wt_kq, 0).
  Every row of the output array lies in exactly one block, so after the region the output array is ONE function
  of the arrays the region found (its entry contents): `out_arr`.
-/
import proofs.«113272_j71416716197907_2_alg».proof.Proof.Gen.KernelIdeal.Frame
import proofs.«113272_j71416716197907_2_alg».proof.Proof.Spec
import proofs.«113272_j71416716197907_2_alg».proof.Proof.Blocks
import proofs.«113272_j71416716197907_2_alg».proof.Proof.KBody
import Idealize.ShloMosaic.Lib.Pipeline.Value
import Idealize.ShloMosaic.Lib.ValueIdx

set_option maxRecDepth 16384

noncomputable section

namespace Cert.Gin.K2

open Idealize.ShloMosaic Idealize.ShloMosaic.ValueIdx Idealize.ShloMosaic.TcCoe Idealize.SL.Sem
open Cert.KernelIdeal Cert.KernelIdeal.Gen Cert.Gin Cert.Gin.KBody
open Idealize.ShloMosaic.Pipeline (Dat)

variable (V : (c : Dev nD) → (b : Ref sig .tc) → Buf (Elt Ideal) ((c : Thread nD τ).loc b))

/-! ## The output array as a function of the region's six input arrays -/

/-- The last layer's output at row `r`, column `q`: normalise and clip row `r` of `h` entry by entry, multiply by
    the transposed weight matrix, clip. -/
def outv (h : S100000x128.Idx → EReal) (μ v g be : S1x128.Idx → EReal) (wt : S128x128.Idx → EReal) (r : Fin 100000) (q : Fin 128) : EReal :=
  max (∑ k : Fin 128, bnAt (h (ix2 r k)) (μ (ix2 0 k)) (v (ix2 0 k)) (g (ix2 0 k)) (be (ix2 0 k)) * wt (ix2 k q)) 0

def out_arr (h : S100000x128.Idx → EReal) (μ v g be : S1x128.Idx → EReal) (wt : S128x128.Idx → EReal) : S100000x128.Idx → EReal :=
  fun i => outv h μ v g be wt (i 0) (i 1)

/-! ## The index maps, decided over the 25 grid points -/

theorem hz : (![0, 0] : Fin 2 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ t.val < 25 :=
  (by decide +kernel : ∀ t : Fin grid2.N, _)

/-- The grid point of block `t`. -/
def pt (t : Fin 25) : Fin cfg2.N := ⟨t.val, by have := t.isLt; show t.val < 25; omega⟩

theorem pt_surj (t : Fin cfg2.N) : ∃ t' : Fin 25, t = pt t' := ⟨⟨t.val, (idx_facts t).2.2.2.2.2.2.2.2.2.2.2.2.2.2⟩, Fin.ext rfl⟩

/-! ## The input blocks, read where the point's rectangle says -/

/-- Block `t` of the second linear layer's output (window 0): rows `4000·t …` of the array the region found. -/
theorem blk0 (c : Dev nD) (t : Fin 25) (p : Fin 4000) (k : Fin 128) :
    iblk2 V c 0 (pt t) (ix2 p k) = V c main_v34_0 (ix2 (rowOf t p) k) := by
  obtain ⟨e0, e1, -⟩ := idx_facts (pt t)
  show V c main_v34_0 (((cfg2.win 0).blk (pt t)).view.emb (ix2 p k)) = V c main_v34_0 (ix2 (rowOf t p) k)
  refine congrArg _ (funext fun a => Fin.ext ?_)
  match a with
  | ⟨0, _⟩ => show win2_0.index (pt t) (0 : Fin 2) * 4000 + 1 * p.val = t.val * 4000 + p.val; rw [e0]; show t.val * 4000 + 1 * p.val = _; omega
  | ⟨1, _⟩ => show win2_0.index (pt t) (1 : Fin 2) * 128 + 1 * k.val = k.val; rw [e1]; omega

/-- The row of column means (window 1) is read whole at every point. -/
theorem blk1 (c : Dev nD) (t : Fin 25) (q : Fin 128) :
    iblk2 V c 1 (pt t) (ix2 0 q) = V c main_v40 (ix2 0 q) := by
  obtain ⟨-, -, e0, e1, -⟩ := idx_facts (pt t)
  show V c main_v40 (((cfg2.win 1).blk (pt t)).view.emb (ix2 0 q)) = V c main_v40 (ix2 0 q)
  refine congrArg _ (funext fun a => Fin.ext ?_)
  match a with
  | ⟨0, _⟩ => show win2_1.index (pt t) (0 : Fin 2) * 1 + 1 * 0 = 0; rw [e0]
  | ⟨1, _⟩ => show win2_1.index (pt t) (1 : Fin 2) * 128 + 1 * q.val = q.val; rw [e1]; omega

/-- The row of column variances (window 2) is read whole at every point. -/
theorem blk2 (c : Dev nD) (t : Fin 25) (q : Fin 128) :
    iblk2 V c 2 (pt t) (ix2 0 q) = V c main_v44 (ix2 0 q) := by
  obtain ⟨-, -, -, -, e0, e1, -⟩ := idx_facts (pt t)
  show V c main_v44 (((cfg2.win 2).blk (pt t)).view.emb (ix2 0 q)) = V c main_v44 (ix2 0 q)
  refine congrArg _ (funext fun a => Fin.ext ?_)
  match a with
  | ⟨0, _⟩ => show win2_2.index (pt t) (0 : Fin 2) * 1 + 1 * 0 = 0; rw [e0]
  | ⟨1, _⟩ => show win2_2.index (pt t) (1 : Fin 2) * 128 + 1 * q.val = q.val; rw [e1]; omega

/-- The scale row (window 3) is read whole at every point. -/
theorem blk3 (c : Dev nD) (t : Fin 25) (q : Fin 128) :
    iblk2 V c 3 (pt t) (ix2 0 q) = V c main_v21 (ix2 0 q) := by
  obtain ⟨-, -, -, -, -, -, e0, e1, -⟩ := idx_facts (pt t)
  show V c main_v21 (((cfg2.win 3).blk (pt t)).view.emb (ix2 0 q)) = V c main_v21 (ix2 0 q)
  refine congrArg _ (funext fun a => Fin.ext ?_)
  match a with
  | ⟨0, _⟩ => show win2_3.index (pt t) (0 : Fin 2) * 1 + 1 * 0 = 0; rw [e0]
  | ⟨1, _⟩ => show win2_3.index (pt t) (1 : Fin 2) * 128 + 1 * q.val = q.val; rw [e1]; omega

/-- The shift row (window 4) is read whole at every point. -/
theorem blk4 (c : Dev nD) (t : Fin 25) (q : Fin 128) :
    iblk2 V c 4 (pt t) (ix2 0 q) = V c main_v22 (ix2 0 q) := by
  obtain ⟨-, -, -, -, -, -, -, -, e0, e1, -⟩ := idx_facts (pt t)
  show V c main_v22 (((cfg2.win 4).blk (pt t)).view.emb (ix2 0 q)) = V c main_v22 (ix2 0 q)
  refine congrArg _ (funext fun a => Fin.ext ?_)
  match a with
  | ⟨0, _⟩ => show win2_4.index (pt t) (0 : Fin 2) * 1 + 1 * 0 = 0; rw [e0]
  | ⟨1, _⟩ => show win2_4.index (pt t) (1 : Fin 2) * 128 + 1 * q.val = q.val; rw [e1]; omega

/-- The weight matrix (window 5) is read whole at every point. -/
theorem blk5 (c : Dev nD) (t : Fin 25) (k q : Fin 128) :
    iblk2 V c 5 (pt t) (ix2 k q) = V c main_v16 (ix2 k q) := by
  obtain ⟨-, -, -, -, -, -, -, -, -, -, e0, e1, -⟩ := idx_facts (pt t)
  show V c main_v16 (((cfg2.win 5).blk (pt t)).view.emb (ix2 k q)) = V c main_v16 (ix2 k q)
  refine congrArg _ (funext fun a => Fin.ext ?_)
  match a with
  | ⟨0, _⟩ => show win2_5.index (pt t) (0 : Fin 2) * 128 + 1 * k.val = k.val; rw [e0]; omega
  | ⟨1, _⟩ => show win2_5.index (pt t) (1 : Fin 2) * 128 + 1 * q.val = q.val; rw [e1]; omega

/-- The body's payload at block `t`, row `p`, column `q` is the layer's output at row `4000·t + p`. -/
theorem pay_out (c : Dev nD) (t : Fin 25) (p : Fin 4000) (q : Fin 128) :
    k2_pay1 (F := Ideal) (iblk2 V c 0 (pt t)) (iblk2 V c 1 (pt t)) (iblk2 V c 2 (pt t)) (iblk2 V c 3 (pt t)) (iblk2 V c 4 (pt t)) (iblk2 V c 5 (pt t)) (ix2 p q)
      = outv (V c main_v34_0) (V c main_v40) (V c main_v44) (V c main_v21) (V c main_v22) (V c main_v16) (rowOf t p) q := by
  refine (pay2_1 (iblk2 V c 0 (pt t)) (iblk2 V c 1 (pt t)) (iblk2 V c 2 (pt t)) (iblk2 V c 3 (pt t)) (iblk2 V c 4 (pt t)) (iblk2 V c 5 (pt t)) p q).trans ?_
  unfold outv
  refine congrArg (max · 0) (Finset.sum_congr rfl fun k _ => ?_)
  rw [blk0 V c t p k, blk1 V c t k, blk2 V c t k, blk3 V c t k, blk4 V c t k, blk5 V c t k q]

/-! ## What a point writes back, the cover, and the array after the region -/

/-- Point `t` writes back block `t` of the output. -/
theorem flushed6 (c : Dev nD) (t : Fin 25) :
    (dat2 V c).flushed 6 (pt t) = ((cfg2.win 6).blk (pt t)).view.read (Elt Ideal)
      (out_arr (V c main_v34_0) (V c main_v40) (V c main_v44) (V c main_v21) (V c main_v22) (V c main_v16)) := by
  obtain ⟨-, -, -, -, -, -, -, -, -, -, -, -, e60, e61, -⟩ := idx_facts (pt t)
  show (cfg2.win 6).cut (grid2.coords (pt t)) ((dat2 V c).after 6 (pt t)) = _
  rw [after2_6]
  unfold out2_6
  rw [View.canon_unit_zero hz]
  simp only [View.ld_unit_zero (S := S4000x128) hz, View.ld_unit_zero (S := S128x128) hz, View.ld_unit_zero (S := S1x128) hz]
  funext j
  obtain ⟨p, q, rfl⟩ : ∃ (p : Fin 4000) (q : Fin 128), j = ix2 p q := ⟨j 0, j 1, eq_ix2 j⟩
  show k2_pay1 (F := Ideal) (iblk2 V c 0 (pt t)) (iblk2 V c 1 (pt t)) (iblk2 V c 2 (pt t)) (iblk2 V c 3 (pt t)) (iblk2 V c 4 (pt t)) (iblk2 V c 5 (pt t)) (ix2 p q)
    = out_arr (V c main_v34_0) (V c main_v40) (V c main_v44) (V c main_v21) (V c main_v22) (V c main_v16) (((cfg2.win 6).blk (pt t)).view.emb (ix2 p q))
  have e : ((cfg2.win 6).blk (pt t)).view.emb (ix2 p q) = ix2 (rowOf t p) q := funext fun a => Fin.ext (by
    match a with
    | ⟨0, _⟩ => show win2_6.index (pt t) (0 : Fin 2) * 4000 + 1 * p.val = t.val * 4000 + p.val; rw [e60]; show t.val * 4000 + 1 * p.val = _; omega
    | ⟨1, _⟩ => show win2_6.index (pt t) (1 : Fin 2) * 128 + 1 * q.val = q.val; rw [e61]; omega)
  rw [e]
  exact pay_out V c t p q

/-- An index of the output array is in point `t`'s block iff each coordinate is in the block's range. -/
theorem mem_blk6 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v45).slice (win2_6.rect t)).set ↔ _
  rw [View.set_slice_whole, Rect.mem_set_unit]
  exact Iff.rfl

/-- Row `R` of the output lies in block `R / 4000`. -/
theorem cover6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  obtain ⟨-, -, -, -, -, -, -, -, -, -, -, -, e60, e61, -⟩ := idx_facts (pt ⟨(i 0).val / 4000, by omega⟩)
  refine ⟨pt ⟨(i 0).val / 4000, by omega⟩, flush2_6 _, ?_⟩
  rw [mem_blk6]
  intro a
  match a with
  | ⟨0, _⟩ =>
    show win2_6.index (pt ⟨(i 0).val / 4000, _⟩) (0 : Fin 2) * 4000 ≤ (i 0).val ∧ (i 0).val < win2_6.index (pt ⟨(i 0).val / 4000, _⟩) (0 : Fin 2) * 4000 + 4000
    rw [e60]; show (i 0).val / 4000 * 4000 ≤ (i 0).val ∧ (i 0).val < (i 0).val / 4000 * 4000 + 4000; omega
  | ⟨1, _⟩ =>
    show win2_6.index (pt ⟨(i 0).val / 4000, _⟩) (1 : Fin 2) * 128 ≤ (i 1).val ∧ (i 1).val < win2_6.index (pt ⟨(i 0).val / 4000, _⟩) (1 : Fin 2) * 128 + 128
    rw [e61]; omega

/-- THE ARRAY after the region: one function of the arrays the region found. -/
theorem final6 (c : Dev nD) : (dat2 V c).arrAt 6 cfg2.N = out_arr (V c main_v34_0) (V c main_v40) (V c main_v44) (V c main_v21) (V c main_v22) (V c main_v16) :=
  (dat2 V c).arrAt_eq_of_cover 6 _ (fun t _ => by obtain ⟨t', rfl⟩ := pt_surj t; exact flushed6 V c t') cover6

end Cert.Gin.K2

end
-- ==== Proof.Consts.lean ====
/-
  The single-precision constants of the layer, as the extended reals their bit patterns denote:
  the row count 100000 (exactly representable), the BatchNorm epsilon (a positive real), one and zero.
  This is the one module that unfolds the meaning of a bit pattern; every other module reads the
  constants from here.
-/
import proofs.«113272_j71416716197907_2_alg».proof.Proof.Spec
import Mathlib.Tactic

noncomputable section

namespace Cert.Gin

open Idealize.ShloMosaic

/-- The pattern `0x47C35000` has exponent field 143 and fraction 4411392, so it denotes
    `(2^23 + 4411392) · 2^(143 − 127 − 23) = 12800000 / 128 = 100000`. -/
theorem cnt_eq : cnt = ((100000 : ℝ) : EReal) := by
  unfold cnt
  simp [Ideal.ofBits, Ideal.ieee, -EReal.coe_mul]; norm_num

/-- The pattern `0x3727C5AC` has exponent field 110 and fraction 2606508, so it denotes the
    positive real `(2^23 + 2606508) · 2^(110 − 127 − 23) = 10995116 · 2^(-40)`. -/
theorem eps_pos : ∃ e : ℝ, 0 < e ∧ eps = (e : EReal) := by
  refine ⟨(10995116 : ℝ) * (2 : ℝ) ^ (-40 : Int), by positivity, ?_⟩
  unfold eps
  simp [Ideal.ofBits, Ideal.ieee, -EReal.coe_mul]

/-- The pattern of `1.0` denotes `1`. -/
theorem ofBits_one : Ideal.ofBits .f32 0x3F800000#32 = (1 : EReal) := by
  simp [Ideal.ofBits, Ideal.ieee, -EReal.coe_mul]; norm_num

/-- The pattern of `+0.0` denotes `0`. -/
theorem ofBits_zero : Ideal.ofBits .f32 0x00000000#32 = (0 : EReal) := by
  simp [Ideal.ofBits, Ideal.ieee]

end Cert.Gin

end
-- ==== Proof.KHostOps.lean ====
/-
  The host operations between the kernel regions, read at one entry.

  The transpose of a 128×128 matrix at (k, q) is the matrix at (q, k); a 128-vector reshaped to a 1×128 row
  at (0, q) is the vector at q.  The column mean made from a 200-row array of per-block sums is, at (0, q),
  the sum of the 200 entries of column q (the column sum starts from the literal zero) divided by the row
  count 100000; the one-pass variance is the mean of the sums of squares minus the square of the mean.
-/
import proofs.«113272_j71416716197907_2_alg».proof.Proof.KHostDefs
import proofs.«113272_j71416716197907_2_alg».proof.Proof.Spec
import proofs.«113272_j71416716197907_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.Gin.KH

open Idealize.ShloMosaic Idealize.ShloMosaic.StableHlo Cert.KernelIdeal Cert.KernelIdeal.Facts₀
open Idealize.ShloMosaic.ValueIdx

variable [Cert.KernelIdeal.Facts₀]

/-- The transposed matrix at (k, q) is the matrix at (q, k). -/
theorem tr_at (W : FVec Ideal S128x128 .f32) (k q : Fin 128) : tr W (ix2 k q) = W (ix2 q k) := by
  unfold tr
  exact transpose_apply [1, 0] W transposes_S128x128_S128x128_1_0 (ix2 k q) (ix2 q k) (fun b => match b with
    | ⟨0, _⟩ => rfl
    | ⟨1, _⟩ => rfl)

/-- The vector as a one-row matrix at (0, q) is the vector at q: both have row-major position q. -/
theorem rs_at (b : FVec Ideal S128 .f32) (q : Fin 128) : rs b (ix2 0 q) = b (ix1 q) := by
  unfold rs
  exact shapeCast_apply b shapeCasts_S128_S1x128 (ix2 0 q) (ix1 q) (by
    rewrite [Shape.rowMajor_val_two, Shape.rowMajor_val_one]
    show q.val = 0 * 128 + q.val
    omega)

/-- The sum over the 200 rows, started from the literal zero, at column q. -/
theorem sumRows_at (S : FVec Ideal S200x128 .f32) (q : Fin 128) :
    Host.reduceAdd S (constant (F := Ideal) S_ .f32 0x00000000#32) reducesTo_S200x128_S128_d0 h_S_ (ix1 q) =
      ∑ Q : Fin 200, S (ix2 Q q) := by
  simp only [Host.reduceAdd, Ideal.hostReduceAdd_def]
  rw [Ideal.hostReduceAdd_single reducesTo_S200x128_S128_d0 (by decide)]
  have hz : (constant (F := Ideal) S_ .f32 0x00000000#32) (Shape.Idx.first h_S_) = 0 := Ideal.ofBits_zero_f32
  rw [hz, zero_add]
  refine Finset.sum_congr rfl fun k _ => ?_
  exact congrArg S (funext fun a => Fin.ext (by match a with | ⟨0, _⟩ => rfl | ⟨1, _⟩ => rfl))

/-- The column mean at (0, q): the column's sum over the row count. -/
theorem meanOf_at (S : FVec Ideal S200x128 .f32) (q : Fin 128) :
    meanOf S (ix2 0 q) = Ideal.div (∑ Q : Fin 200, S (ix2 Q q)) Cert.Gin.cnt := by
  unfold meanOf
  show Ideal.div
      (broadcastInDim S1x128 ![1] bcast_S128_S1x128_1
        (Host.reduceAdd S (constant (F := Ideal) S_ .f32 0x00000000#32) reducesTo_S200x128_S128_d0 h_S_) (ix2 0 q))
      (broadcastInDim S1x128 ![] bcast_S_S1x128 (constant (F := Ideal) S_ .f32 0x47C35000#32) (ix2 0 q)) = _
  rw [broadcastInDim_apply ![1] bcast_S128_S1x128_1 _ (ix2 0 q) (ix1 q) (fun a => match a with
      | ⟨0, _⟩ => by show q.val = if (128 : Nat) = 1 then 0 else q.val; rw [if_neg (by decide)]),
    broadcastInDim_apply ![] bcast_S_S1x128 _ (ix2 0 q) ix0 (fun a => a.elim0),
    sumRows_at]
  rfl

/-- The one-pass variance at (0, q): the mean of the sums of squares minus the square of the mean. -/
theorem varOf_at (S Q : FVec Ideal S200x128 .f32) (q : Fin 128) :
    varOf S Q (ix2 0 q) =
      Ideal.div (∑ R : Fin 200, Q (ix2 R q)) Cert.Gin.cnt - meanOf S (ix2 0 q) * meanOf S (ix2 0 q) := by
  unfold varOf
  show meanOf Q (ix2 0 q) - meanOf S (ix2 0 q) * meanOf S (ix2 0 q) = _
  rw [meanOf_at Q q]

end Cert.Gin.KH

end
-- ==== Proof.KBridge.lean ====
/-
  From the kernel program's composed array functions to the specification.

  Each kernel region leaves its output arrays as one function of the arrays it found; between the regions the host
  transposes the weight matrices, reshapes the parameter vectors into rows and finishes the batch statistics from the
  200-row per-block arrays.  Composed, the program's result is one function of the features, the aggregate and the
  nine parameter arrays.  This module shows that function is the layer of the specification with the ONE-PASS variance:
    • (x·1 + agg)·W1ᵀ + b1 is the first stage;
    • the mean finished from the per-block sums is the column mean — the 200 rows of a column sum to the 25 block sums,
      and those to the sum over all 100000 rows — and with the per-block sums of squares the finished variance is the
      mean of the squares minus the square of the mean;
    • the normalise-and-clip of an entry with those statistics is the specification's BatchNorm-and-ReLU entry, so the
      second region's output is the second stage and the third region's the third.
-/
import proofs.«113272_j71416716197907_2_alg».proof.Proof.Spec
import proofs.«113272_j71416716197907_2_alg».proof.Proof.Blocks
import proofs.«113272_j71416716197907_2_alg».proof.Proof.Consts
import proofs.«113272_j71416716197907_2_alg».proof.Proof.KBody
import proofs.«113272_j71416716197907_2_alg».proof.Proof.KHostDefs
import proofs.«113272_j71416716197907_2_alg».proof.Proof.KHostOps
import proofs.«113272_j71416716197907_2_alg».proof.Proof.KRegion0
import proofs.«113272_j71416716197907_2_alg».proof.Proof.KRegion1
import proofs.«113272_j71416716197907_2_alg».proof.Proof.KRegion2
import Idealize.ShloMosaic.Lib.ValueIdx

noncomputable section

open scoped BigOperators

namespace Cert.Gin.KBridge

open Idealize.ShloMosaic Idealize.ShloMosaic.ValueIdx Cert.KernelIdeal Cert.Gin Cert.Gin.KBody
open Cert.Gin.KH

variable [Cert.KernelIdeal.Facts₀]

/-! ## The per-block statistics arrays of a matrix, and the statistics finished from them -/

/-- The 200-row array of per-block column sums of a matrix. -/
def sumStat (H : Mat 100000 128) : S200x128.Idx → EReal :=
  statArr fun t q => ∑ p : Fin 4000, H (rowOf t p) q

/-- The 200-row array of per-block column sums of squares of a matrix. -/
def sqStat (H : Mat 100000 128) : S200x128.Idx → EReal :=
  statArr fun t q => ∑ p : Fin 4000, H (rowOf t p) q * H (rowOf t p) q

/-- The mean finished from the per-block sums is the column mean: the 200 rows sum to the 25 block sums, and those to
    the sum over all 100000 rows. -/
theorem mean_stat (H : Mat 100000 128) (q : Fin 128) : meanOf (sumStat H) (ix2 0 q) = colMean H q :=
  (meanOf_at (sumStat H) q).trans
    (congrArg (fun s => Ideal.div s cnt) ((sum_statArr _ q).trans (colsum_blocks H q).symm))

/-- The variance finished from the per-block sums and sums of squares is the one-pass variance. -/
theorem var_stat (H : Mat 100000 128) (q : Fin 128) : varOf (sumStat H) (sqStat H) (ix2 0 q) = varOnePass H q := by
  refine (varOf_at (sumStat H) (sqStat H) q).trans ?_
  rw [mean_stat H q]
  exact congrArg (fun s => Ideal.div s cnt - colMean H q * colMean H q)
    ((sum_statArr _ q).trans (sum_rows fun r => H r q * H r q).symm)

/-- The normalise-and-clip of an entry with the finished statistics and the reshaped parameter rows is the
    specification's BatchNorm-and-ReLU entry. -/
theorem bn_bridge (H : Mat 100000 128) (g be : FVec Ideal S128 .f32) (r : Fin 100000) (k : Fin 128) :
    bnAt (arr H (ix2 r k)) (meanOf (sumStat H) (ix2 0 k)) (varOf (sumStat H) (sqStat H) (ix2 0 k)) (rs g (ix2 0 k))
        (rs be (ix2 0 k))
      = bnRelu H (colMean H) (varOnePass H) (row g) (row be) r k := by
  rw [mean_stat, var_stat, rs_at, rs_at]
  rfl

/-! ## Layer 1 -/

/-- The first region's layer output, with the transposed weights and the bias row, is the first stage. -/
theorem h1_fun (x agg : FVec Ideal S100000x128 .f32) (w1 : FVec Ideal S128x128 .f32) (b1 : FVec Ideal S128 .f32) :
    K0.h1 x agg (tr w1) (rs b1) = stage1 (cur x) (cur agg) (cur w1) (row b1) := by
  funext r q
  unfold K0.h1 stage1 lin
  rw [rs_at b1 q]
  refine congrArg (· + row b1 q) (Finset.sum_congr rfl fun k _ => ?_)
  rw [tr_at, ofBits_one, mul_one]
  rfl

theorem k0_h1_arr (x agg : FVec Ideal S100000x128 .f32) (w1 : FVec Ideal S128x128 .f32) (b1 : FVec Ideal S128 .f32) :
    K0.h1_arr x agg (tr w1) (rs b1) = arr (stage1 (cur x) (cur agg) (cur w1) (row b1)) := by
  show arr (K0.h1 x agg (tr w1) (rs b1)) = _
  rw [h1_fun]

theorem k0_sum_arr (x agg : FVec Ideal S100000x128 .f32) (w1 : FVec Ideal S128x128 .f32) (b1 : FVec Ideal S128 .f32) :
    K0.sum_arr x agg (tr w1) (rs b1) = sumStat (stage1 (cur x) (cur agg) (cur w1) (row b1)) := by
  show sumStat (K0.h1 x agg (tr w1) (rs b1)) = _
  rw [h1_fun]

theorem k0_sumsq_arr (x agg : FVec Ideal S100000x128 .f32) (w1 : FVec Ideal S128x128 .f32) (b1 : FVec Ideal S128 .f32) :
    K0.sumsq_arr x agg (tr w1) (rs b1) = sqStat (stage1 (cur x) (cur agg) (cur w1) (row b1)) := by
  show sqStat (K0.h1 x agg (tr w1) (rs b1)) = _
  rw [h1_fun]

/-! ## Layer 2 -/

/-- The second region's layer output on a matrix and its finished statistics is the second stage with the one-pass
    variance. -/
theorem h2_fun (H : Mat 100000 128) (g1 be1 : FVec Ideal S128 .f32) (w2 : FVec Ideal S128x128 .f32)
    (b2 : FVec Ideal S128 .f32) :
    K1.h2 (arr H) (meanOf (sumStat H)) (varOf (sumStat H) (sqStat H)) (rs g1) (rs be1) (tr w2) (rs b2)
      = stage2 varOnePass H (row g1) (row be1) (cur w2) (row b2) := by
  funext r q
  unfold K1.h2 stage2 lin
  rw [rs_at b2 q]
  refine congrArg (· + row b2 q) (Finset.sum_congr rfl fun k _ => ?_)
  rw [bn_bridge, tr_at]
  rfl

theorem k1_h2_arr (H : Mat 100000 128) (g1 be1 : FVec Ideal S128 .f32) (w2 : FVec Ideal S128x128 .f32)
    (b2 : FVec Ideal S128 .f32) :
    K1.h2_arr (arr H) (meanOf (sumStat H)) (varOf (sumStat H) (sqStat H)) (rs g1) (rs be1) (tr w2) (rs b2)
      = arr (stage2 varOnePass H (row g1) (row be1) (cur w2) (row b2)) := by
  show arr (K1.h2 (arr H) (meanOf (sumStat H)) (varOf (sumStat H) (sqStat H)) (rs g1) (rs be1) (tr w2) (rs b2)) = _
  rw [h2_fun]

theorem k1_sum_arr (H : Mat 100000 128) (g1 be1 : FVec Ideal S128 .f32) (w2 : FVec Ideal S128x128 .f32)
    (b2 : FVec Ideal S128 .f32) :
    K1.sum_arr (arr H) (meanOf (sumStat H)) (varOf (sumStat H) (sqStat H)) (rs g1) (rs be1) (tr w2) (rs b2)
      = sumStat (stage2 varOnePass H (row g1) (row be1) (cur w2) (row b2)) := by
  show sumStat (K1.h2 (arr H) (meanOf (sumStat H)) (varOf (sumStat H) (sqStat H)) (rs g1) (rs be1) (tr w2) (rs b2)) = _
  rw [h2_fun]

theorem k1_sumsq_arr (H : Mat 100000 128) (g1 be1 : FVec Ideal S128 .f32) (w2 : FVec Ideal S128x128 .f32)
    (b2 : FVec Ideal S128 .f32) :
    K1.sumsq_arr (arr H) (meanOf (sumStat H)) (varOf (sumStat H) (sqStat H)) (rs g1) (rs be1) (tr w2) (rs b2)
      = sqStat (stage2 varOnePass H (row g1) (row be1) (cur w2) (row b2)) := by
  show sqStat (K1.h2 (arr H) (meanOf (sumStat H)) (varOf (sumStat H) (sqStat H)) (rs g1) (rs be1) (tr w2) (rs b2)) = _
  rw [h2_fun]

/-! ## Layer 3 -/

/-- The third region's output on a matrix and its finished statistics is the third stage with the one-pass variance. -/
theorem out_fun (H : Mat 100000 128) (g2 be2 : FVec Ideal S128 .f32) (w3 : FVec Ideal S128x128 .f32) :
    K2.outv (arr H) (meanOf (sumStat H)) (varOf (sumStat H) (sqStat H)) (rs g2) (rs be2) (tr w3)
      = stage3 varOnePass H (row g2) (row be2) (cur w3) := by
  funext r q
  unfold K2.outv stage3
  refine congrArg (max · 0) (Finset.sum_congr rfl fun k _ => ?_)
  rw [bn_bridge, tr_at]
  rfl

theorem k2_out_arr (H : Mat 100000 128) (g2 be2 : FVec Ideal S128 .f32) (w3 : FVec Ideal S128x128 .f32) :
    K2.out_arr (arr H) (meanOf (sumStat H)) (varOf (sumStat H) (sqStat H)) (rs g2) (rs be2) (tr w3)
      = arr (stage3 varOnePass H (row g2) (row be2) (cur w3)) := by
  show arr (K2.outv (arr H) (meanOf (sumStat H)) (varOf (sumStat H) (sqStat H)) (rs g2) (rs be2) (tr w3)) = _
  rw [out_fun]

/-! ## The whole program -/

/-- The kernel program's result as one function of the features, the aggregate and the nine parameter arrays: the three
    regions' array functions composed through the host operations between them. -/
def kernelOut (x agg : FVec Ideal S100000x128 .f32) (w1 : FVec Ideal S128x128 .f32) (b1 g1 be1 : FVec Ideal S128 .f32)
    (w2 : FVec Ideal S128x128 .f32) (b2 g2 be2 : FVec Ideal S128 .f32) (w3 : FVec Ideal S128x128 .f32) :
    S100000x128.Idx → EReal :=
  let H1 := K0.h1_arr x agg (tr w1) (rs b1)
  let μ1 := meanOf (K0.sum_arr x agg (tr w1) (rs b1))
  let v1 := varOf (K0.sum_arr x agg (tr w1) (rs b1)) (K0.sumsq_arr x agg (tr w1) (rs b1))
  let H2 := K1.h2_arr H1 μ1 v1 (rs g1) (rs be1) (tr w2) (rs b2)
  let μ2 := meanOf (K1.sum_arr H1 μ1 v1 (rs g1) (rs be1) (tr w2) (rs b2))
  let v2 := varOf (K1.sum_arr H1 μ1 v1 (rs g1) (rs be1) (tr w2) (rs b2)) (K1.sumsq_arr H1 μ1 v1 (rs g1) (rs be1) (tr w2) (rs b2))
  K2.out_arr H2 μ2 v2 (rs g2) (rs be2) (tr w3)

/-- The kernel program computes the layer with the one-pass variance. -/
theorem kernelOut_eq (x agg : FVec Ideal S100000x128 .f32) (w1 : FVec Ideal S128x128 .f32) (b1 g1 be1 : FVec Ideal S128 .f32)
    (w2 : FVec Ideal S128x128 .f32) (b2 g2 be2 : FVec Ideal S128 .f32) (w3 : FVec Ideal S128x128 .f32) :
    kernelOut x agg w1 b1 g1 be1 w2 b2 g2 be2 w3
      = arr (net varOnePass (cur x) (cur agg) (cur w1) (row b1) (row g1) (row be1) (cur w2) (row b2) (row g2) (row be2)
          (cur w3)) := by
  unfold kernelOut
  dsimp only
  rw [k0_h1_arr, k0_sum_arr, k0_sumsq_arr, k1_h2_arr, k1_sum_arr, k1_sumsq_arr, k2_out_arr]
  rfl

end Cert.Gin.KBridge

end
-- ==== Proof.KValue.lean ====
/-
  The idealized kernel program's result, as a function of its arguments.

  After the third region the result buffer holds the third region's output array.  Reading each region's output
  arrays as functions of what the region found, and what each region found as the host operations' values of the
  previous region's arrays, composes to ONE function of the launch contents of the eleven arguments: the three
  layers applied to the features and the aggregate, with the batch statistics in the one-pass form.
-/
import proofs.«113272_j71416716197907_2_alg».proof.Proof.KHost
import proofs.«113272_j71416716197907_2_alg».proof.Proof.KRegion0
import proofs.«113272_j71416716197907_2_alg».proof.Proof.KRegion1
import proofs.«113272_j71416716197907_2_alg».proof.Proof.KRegion2
import proofs.«113272_j71416716197907_2_alg».proof.Proof.KBridge

set_option maxRecDepth 16384

noncomputable section

namespace Cert.Gin.KValue

open Idealize.ShloMosaic Idealize.ShloMosaic.TcCoe Idealize.SL.Sem
open Cert.KernelIdeal Cert.KernelIdeal.Gen Cert.Gin Cert.Gin.KH Cert.Gin.KHost

/-! ## Congruence of functions of several arrays -/

theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

theorem congr6 {α β γ δ ε ζ η : Sort _} (f : α → β → γ → δ → ε → ζ → η) {a a' : α} {b b' : β} {c c' : γ} {d d' : δ}
    {e e' : ε} {g g' : ζ} (ha : a = a') (hb : b = b') (hc : c = c') (hd : d = d') (he : e = e') (hg : g = g') :
    f a b c d e g = f a' b' c' d' e' g' := by
  subst ha hb hc hd he hg; rfl

theorem congr7 {α β γ δ ε ζ η θ : Sort _} (f : α → β → γ → δ → ε → ζ → η → θ) {a a' : α} {b b' : β} {c c' : γ} {d d' : δ}
    {e e' : ε} {g g' : ζ} {h h' : η} (ha : a = a') (hb : b = b') (hc : c = c') (hd : d = d') (he : e = e') (hg : g = g')
    (hh : h = h') : f a b c d e g h = f a' b' c' d' e' g' h' := by
  subst ha hb hc hd he hg hh; rfl

variable (m : (ℓ : Loc nD τ sig) → Buf (Elt Ideal) ℓ) (ρ : Dev nD → PrngReg) (c : Dev nD)

/-! ## The first region's three output arrays, of the launch contents -/

theorem r0_h : (dat0 (V1 m ρ) c).arrAt 4 cfg0.N = K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))) :=
  (K0.final4 (V1 m ρ) c).trans (congr4 K0.h1_arr (l1_x m ρ c) (l1_agg m ρ c) (l1_main_v14 m ρ c) (l1_main_v17 m ρ c))

theorem r0_sum : (dat0 (V1 m ρ) c).arrAt 5 cfg0.N = K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))) :=
  (K0.final5 (V1 m ρ) c).trans (congr4 K0.sum_arr (l1_x m ρ c) (l1_agg m ρ c) (l1_main_v14 m ρ c) (l1_main_v17 m ρ c))

theorem r0_sumsq : (dat0 (V1 m ρ) c).arrAt 6 cfg0.N = K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))) :=
  (K0.final6 (V1 m ρ) c).trans (congr4 K0.sumsq_arr (l1_x m ρ c) (l1_agg m ρ c) (l1_main_v14 m ρ c) (l1_main_v17 m ρ c))

/-! ## What the second region finds -/

theorem e2_h : V3 m ρ c main_v23_0 = K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))) := (l3_h m ρ c).trans (r0_h m ρ c)

theorem e2_mean : V3 m ρ c main_v29 = meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) :=
  (l3_mean m ρ c).trans (congrArg meanOf ((w2_sum m ρ c).trans (r0_sum m ρ c)))

theorem e2_var : V3 m ρ c main_v33 = varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) :=
  (l3_var m ρ c).trans (congrArg₂ varOf ((w2_sum m ρ c).trans (r0_sum m ρ c)) ((w2_sumsq m ρ c).trans (r0_sumsq m ρ c)))

theorem e2_g : V3 m ρ c main_v18 = rs (m ((c : Thread nD τ).loc main_arg4)) := (l3_main_v18 m ρ c).trans (l1_main_v18 m ρ c)
theorem e2_be : V3 m ρ c main_v19 = rs (m ((c : Thread nD τ).loc main_arg5)) := (l3_main_v19 m ρ c).trans (l1_main_v19 m ρ c)
theorem e2_w : V3 m ρ c main_v15 = tr (m ((c : Thread nD τ).loc main_arg6)) := (l3_main_v15 m ρ c).trans (l1_main_v15 m ρ c)
theorem e2_b : V3 m ρ c main_v20 = rs (m ((c : Thread nD τ).loc main_arg7)) := (l3_main_v20 m ρ c).trans (l1_main_v20 m ρ c)

/-! ## The second region's three output arrays -/

theorem r1_h : (dat1 (V3 m ρ) c).arrAt 7 cfg1.N = K1.h2_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7))) :=
  (K1.final7 (V3 m ρ) c).trans (congr7 K1.h2_arr (e2_h m ρ c) (e2_mean m ρ c) (e2_var m ρ c) (e2_g m ρ c) (e2_be m ρ c) (e2_w m ρ c) (e2_b m ρ c))

theorem r1_sum : (dat1 (V3 m ρ) c).arrAt 8 cfg1.N = K1.sum_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7))) :=
  (K1.final8 (V3 m ρ) c).trans (congr7 K1.sum_arr (e2_h m ρ c) (e2_mean m ρ c) (e2_var m ρ c) (e2_g m ρ c) (e2_be m ρ c) (e2_w m ρ c) (e2_b m ρ c))

theorem r1_sumsq : (dat1 (V3 m ρ) c).arrAt 9 cfg1.N = K1.sumsq_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7))) :=
  (K1.final9 (V3 m ρ) c).trans (congr7 K1.sumsq_arr (e2_h m ρ c) (e2_mean m ρ c) (e2_var m ρ c) (e2_g m ρ c) (e2_be m ρ c) (e2_w m ρ c) (e2_b m ρ c))

/-! ## What the third region finds -/

theorem e3_h : V5 m ρ c main_v34_0 = K1.h2_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7))) := (l5_h m ρ c).trans (r1_h m ρ c)

theorem e3_mean : V5 m ρ c main_v40 = meanOf (K1.sum_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7)))) :=
  (l5_mean m ρ c).trans (congrArg meanOf ((w4_sum m ρ c).trans (r1_sum m ρ c)))

theorem e3_var : V5 m ρ c main_v44 = varOf (K1.sum_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7)))) (K1.sumsq_arr (K0.h1_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (meanOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (varOf (K0.sum_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3)))) (K0.sumsq_arr (m ((c : Thread nD τ).loc main_arg0)) (Fin.aggK (m ((c : Thread nD τ).loc main_arg0)) (m ((c : Thread nD τ).loc main_arg1))) (tr (m ((c : Thread nD τ).loc main_arg2))) (rs (m ((c : Thread nD τ).loc main_arg3))))) (rs (m ((c : Thread nD τ).loc main_arg4))) (rs (m ((c : Thread nD τ).loc main_arg5))) (tr (m ((c : Thread nD τ).loc main_arg6))) (rs (m ((c : Thread nD τ).loc main_arg7)))) :=
  (l5_var m ρ c).trans (congrArg₂ varOf ((w4_sum m ρ c).trans (r1_sum m ρ c)) ((w4_sumsq m ρ c).trans (r1_sumsq m ρ c)))

theorem e3_g : V5 m ρ c main_v21 = rs (m ((c : Thread nD τ).loc main_arg8)) := (l5_main_v21 m ρ c).trans ((l3_main_v21 m ρ c).trans (l1_main_v21 m ρ c))
theorem e3_be : V5 m ρ c main_v22 = rs (m ((c : Thread nD τ).loc main_arg9)) := (l5_main_v22 m ρ c).trans ((l3_main_v22 m ρ c).trans (l1_main_v22 m ρ c))
theorem e3_w : V5 m ρ c main_v16 = tr (m ((c : Thread nD τ).loc main_arg10)) := (l5_main_v16 m ρ c).trans ((l3_main_v16 m ρ c).trans (l1_main_v16 m ρ c))

/-! ## The result -/

/-- The result buffer after the third region is the composed function of the launch contents. -/
theorem value :
    W6 (F := Ideal) m ρ c (Proc.devRef .tc main_v45)
      = KBridge.kernelOut (m ((c : Thread nD τ).loc main_arg0)) (Fin.aggK (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (l6_out m ρ c).trans ((K2.final6 (V5 m ρ) c).trans
    (congr6 K2.out_arr (e3_h m ρ c) (e3_mean m ρ c) (e3_var m ρ c) (e3_g m ρ c) (e3_be m ρ c) (e3_w m ρ c)))

end Cert.Gin.KValue

end
-- ==== Proof.RefValue.lean ====
/-
  The value of the reference program, read one operation at a time and gathered layer by layer.

  The program adds the aggregated neighbour features to the node features (scaled by the literal one),
  applies a linear map, normalises each column with the batch statistics of the 100000 rows — the mean as
  the column sum divided by the row count, the variance as the column sum of the squared deviations from
  that mean divided by the row count —, rescales, shifts and takes the maximum with zero; does the same
  once more; and ends with a linear map without bias and a last maximum with zero.  Every broadcast of a
  row over the 100000 rows reads the row at the column coordinate, every column sum starts from the
  literal zero, and every matrix product contracts the second axis of the left factor with the first
  axis of the transposed weight, that is with the weight's own second axis.  Entry by entry this is the
  specification's `net` with `varTwoPass`; the aggregate enters only as one array and is never opened.
-/
import proofs.«113272_j71416716197907_2_alg».proof.Proof.Gen.ReferenceIdeal.Read
import proofs.«113272_j71416716197907_2_alg».proof.Proof.Spec
import proofs.«113272_j71416716197907_2_alg».proof.Proof.Consts

noncomputable section

namespace Cert.Gin.Ref

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x128, .f32⟩ : BufTy).Contents (Elt Ideal))

/-- Reading a matrix back from the array made of it gives the matrix. -/
theorem cur_arr {a b : Nat} (M : Mat a b) : cur (arr M) = M := rfl

/-- An array is the array made of the matrix read from it. -/
theorem arr_cur {a b : Nat} (v : (⟨2, ![a, b]⟩ : Shape).Idx → EReal) : arr (cur v) = v := by
  funext i
  exact congrArg v (eq_ix2 i).symm

/-- Two rank-2 arrays that agree at every pair of coordinates are equal. -/
theorem ext_ix2 {a b : Nat} {v w : (⟨2, ![a, b]⟩ : Shape).Idx → EReal}
    (h : ∀ (r : Fin a) (j : Fin b), v (ix2 r j) = w (ix2 r j)) : v = w := by
  funext i
  rw [eq_ix2 i]
  exact h (i 0) (i 1)

/-- The node features scaled by the literal one, plus the aggregate: `x + agg` entry by entry. -/
theorem v16_at (r : Fin 100000) (k : Fin 128) :
    val_main_v16 (F := Ideal) x0 x1 (ix2 r k) = cur x0 r k + cur (val_main_v13 (F := Ideal) x0 x1) r k := by
  rw [val_main_v16_apply, val_main_v15_apply, val_main_v14_apply, val_main_cst_1_apply]
  simp only [Ideal.addf_def, Ideal.mulf_def, Ideal.ofBits_def, ofBits_one, one_mul]
  rfl

/-- The first linear map: the contraction runs over the transposed weight's first axis, that is over the
    weight's second axis, so the entry is `∑ k, (x + agg) r k * W1 j k + b1 j`. -/
theorem v21_at (r : Fin 100000) (j : Fin 128) :
    val_main_v21 (F := Ideal) x0 x1 x2 x3 (ix2 r j) =
      stage1 (cur x0) (cur (val_main_v13 (F := Ideal) x0 x1)) (cur x2) (row x3) r j := by
  rw [val_main_v21_apply, val_main_v18_apply, val_main_v20_apply, val_main_v19_apply]
  have el : ∀ k : Fin 128, lidx_main_v18 (ix2 r j) k = ix2 r k := fun k =>
    funext fun a => Fin.ext (by match a with | ⟨0, _⟩ => rfl | ⟨1, _⟩ => rfl)
  have er : ∀ k : Fin 128, idx_main_v17 (ridx_main_v18 (ix2 r j) k) = ix2 j k := fun k =>
    funext fun a => Fin.ext (by match a with | ⟨0, _⟩ => rfl | ⟨1, _⟩ => rfl)
  have eb : idx_main_v19 (idx_main_v20 (ix2 r j)) = ix1 j :=
    funext fun a => Fin.ext (by match a with | ⟨0, _⟩ => rfl)
  simp only [val_main_v17_apply, el, er, eb, v16_at, Ideal.addf_def]
  rfl

theorem v21_eq :
    val_main_v21 (F := Ideal) x0 x1 x2 x3 =
      arr (stage1 (cur x0) (cur (val_main_v13 (F := Ideal) x0 x1)) (cur x2) (row x3)) :=
  ext_ix2 fun r j => v21_at x0 x1 x2 x3 r j

/-- The column sums of the first layer's output divided by the row count: its column means. -/
theorem v24_at (j : Fin 128) :
    val_main_v24 (F := Ideal) x0 x1 x2 x3 (ix1 j) = colMean (cur (val_main_v21 (F := Ideal) x0 x1 x2 x3)) j := by
  rw [val_main_v24_apply, val_main_v22_apply, val_main_v23_apply, val_main_cst_3_apply, val_main_cst_2_apply]
  have e : ∀ k : Fin 100000, idx_main_v22 (ix1 j) k = ix2 k j := fun k =>
    funext fun a => Fin.ext (by match a with | ⟨0, _⟩ => rfl | ⟨1, _⟩ => rfl)
  simp only [e, Ideal.hostDivf_def, Ideal.ofBits_def, Ideal.ofBits_zero_f32, zero_add]
  rfl

/-- The means laid out again over all rows (for the squared deviations). -/
theorem v26_at (r : Fin 100000) (j : Fin 128) :
    val_main_v26 (F := Ideal) x0 x1 x2 x3 (ix2 r j) = val_main_v24 (F := Ideal) x0 x1 x2 x3 (ix1 j) := by
  rw [val_main_v26_apply, val_main_v25_apply]
  exact congrArg _ (funext fun a => Fin.ext (by match a with | ⟨0, _⟩ => rfl))

/-- The means laid out over all rows a second time (for the normalisation). -/
theorem v33_at (r : Fin 100000) (j : Fin 128) :
    val_main_v33 (F := Ideal) x0 x1 x2 x3 (ix2 r j) = val_main_v24 (F := Ideal) x0 x1 x2 x3 (ix1 j) := by
  rw [val_main_v33_apply, val_main_v32_apply]
  exact congrArg _ (funext fun a => Fin.ext (by match a with | ⟨0, _⟩ => rfl))

/-- The column sums of the squared deviations from the mean, divided by the row count: the two-pass variance. -/
theorem v31_at (j : Fin 128) :
    val_main_v31 (F := Ideal) x0 x1 x2 x3 (ix1 j) = varTwoPass (cur (val_main_v21 (F := Ideal) x0 x1 x2 x3)) j := by
  rw [val_main_v31_apply, val_main_v29_apply, val_main_v30_apply, val_main_cst_5_apply, val_main_cst_4_apply]
  have e : ∀ k : Fin 100000, idx_main_v29 (ix1 j) k = ix2 k j := fun k =>
    funext fun a => Fin.ext (by match a with | ⟨0, _⟩ => rfl | ⟨1, _⟩ => rfl)
  simp only [e, val_main_v28_apply, val_main_v27_apply, v26_at, v24_at, Ideal.hostDivf_def,
    Ideal.ofBits_def, Ideal.ofBits_zero_f32, zero_add, Ideal.mulf_def, Ideal.subf_def]
  rfl

/-- The reciprocal square root of the variance plus epsilon. -/
theorem v37_at (j : Fin 128) :
    val_main_v37 (F := Ideal) x0 x1 x2 x3 (ix1 j) =
      Ideal.rsqrt (varTwoPass (cur (val_main_v21 (F := Ideal) x0 x1 x2 x3)) j + eps) := by
  rw [val_main_v37_apply, val_main_v36_apply, val_main_v35_apply, val_main_cst_6_apply, v31_at]
  simp only [Ideal.hostUnary_rsqrt_def, Ideal.addf_def, Ideal.ofBits_def]
  rfl

/-- That factor laid out over all rows. -/
theorem v39_at (r : Fin 100000) (j : Fin 128) :
    val_main_v39 (F := Ideal) x0 x1 x2 x3 (ix2 r j) = val_main_v37 (F := Ideal) x0 x1 x2 x3 (ix1 j) := by
  rw [val_main_v39_apply, val_main_v38_apply]
  exact congrArg _ (funext fun a => Fin.ext (by match a with | ⟨0, _⟩ => rfl))

/-- The scale laid out over all rows. -/
theorem v42_at (r : Fin 100000) (j : Fin 128) :
    val_main_v42 (F := Ideal) x4 (ix2 r j) = row x4 j := by
  rw [val_main_v42_apply, val_main_v41_apply]
  exact congrArg _ (funext fun a => Fin.ext (by match a with | ⟨0, _⟩ => rfl))

/-- The shift laid out over all rows. -/
theorem v45_at (r : Fin 100000) (j : Fin 128) :
    val_main_v45 (F := Ideal) x5 (ix2 r j) = row x5 j := by
  rw [val_main_v45_apply, val_main_v44_apply]
  exact congrArg _ (funext fun a => Fin.ext (by match a with | ⟨0, _⟩ => rfl))

/-- Normalisation with the batch statistics, scale, shift and the maximum with the literal zero:
    the first layer's output through `bnRelu` with its own column means and two-pass variance. -/
theorem v47_at (r : Fin 100000) (j : Fin 128) :
    val_main_v47 (F := Ideal) x0 x1 x2 x3 x4 x5 (ix2 r j) =
      bnRelu (cur (val_main_v21 (F := Ideal) x0 x1 x2 x3)) (colMean (cur (val_main_v21 (F := Ideal) x0 x1 x2 x3)))
        (varTwoPass (cur (val_main_v21 (F := Ideal) x0 x1 x2 x3))) (row x4) (row x5) r j := by
  rw [val_main_v47_apply, val_main_v46_apply, val_main_v43_apply, val_main_v40_apply, val_main_v34_apply,
    val_main_call0_v0_apply, val_main_call0_cst_apply]
  rw [v33_at, v39_at, v42_at, v45_at, v24_at, v37_at]
  simp only [Ideal.maximumf_def, Ideal.addf_def, Ideal.mulf_def, Ideal.subf_def, Ideal.ofBits_def, Ideal.ofBits_zero_f32]
  rfl

theorem v47_eq :
    val_main_v47 (F := Ideal) x0 x1 x2 x3 x4 x5 =
      arr (bnRelu (cur (val_main_v21 (F := Ideal) x0 x1 x2 x3)) (colMean (cur (val_main_v21 (F := Ideal) x0 x1 x2 x3)))
        (varTwoPass (cur (val_main_v21 (F := Ideal) x0 x1 x2 x3))) (row x4) (row x5)) :=
  ext_ix2 fun r j => v47_at x0 x1 x2 x3 x4 x5 r j

/-- The second linear map, read over the first normalised layer kept as one matrix. -/
theorem v52_at (r : Fin 100000) (j : Fin 128) :
    val_main_v52 (F := Ideal) x0 x1 x2 x3 x4 x5 x6 x7 (ix2 r j) =
      lin (cur (val_main_v47 (F := Ideal) x0 x1 x2 x3 x4 x5)) (cur x6) (row x7) r j := by
  rw [val_main_v52_apply, val_main_v49_apply, val_main_v51_apply, val_main_v50_apply]
  have el : ∀ k : Fin 128, lidx_main_v49 (ix2 r j) k = ix2 r k := fun k =>
    funext fun a => Fin.ext (by match a with | ⟨0, _⟩ => rfl | ⟨1, _⟩ => rfl)
  have er : ∀ k : Fin 128, idx_main_v48 (ridx_main_v49 (ix2 r j) k) = ix2 j k := fun k =>
    funext fun a => Fin.ext (by match a with | ⟨0, _⟩ => rfl | ⟨1, _⟩ => rfl)
  have eb : idx_main_v50 (idx_main_v51 (ix2 r j)) = ix1 j :=
    funext fun a => Fin.ext (by match a with | ⟨0, _⟩ => rfl)
  simp only [val_main_v48_apply, el, er, eb, Ideal.addf_def]
  rfl

/-- The column sums of the second layer's output divided by the row count: its column means. -/
theorem v55_at (j : Fin 128) :
    val_main_v55 (F := Ideal) x0 x1 x2 x3 x4 x5 x6 x7 (ix1 j) = colMean (cur (val_main_v52 (F := Ideal) x0 x1 x2 x3 x4 x5 x6 x7)) j := by
  rw [val_main_v55_apply, val_main_v53_apply, val_main_v54_apply, val_main_cst_8_apply, val_main_cst_7_apply]
  have e : ∀ k : Fin 100000, idx_main_v53 (ix1 j) k = ix2 k j := fun k =>
    funext fun a => Fin.ext (by match a with | ⟨0, _⟩ => rfl | ⟨1, _⟩ => rfl)
  simp only [e, Ideal.hostDivf_def, Ideal.ofBits_def, Ideal.ofBits_zero_f32, zero_add]
  rfl

/-- The means laid out again over all rows (for the squared deviations). -/
theorem v57_at (r : Fin 100000) (j : Fin 128) :
    val_main_v57 (F := Ideal) x0 x1 x2 x3 x4 x5 x6 x7 (ix2 r j) = val_main_v55 (F := Ideal) x0 x1 x2 x3 x4 x5 x6 x7 (ix1 j) := by
  rw [val_main_v57_apply, val_main_v56_apply]
  exact congrArg _ (funext fun a => Fin.ext (by match a with | ⟨0, _⟩ => rfl))

/-- The means laid out over all rows a second time (for the normalisation). -/
theorem v64_at (r : Fin 100000) (j : Fin 128) :
    val_main_v64 (F := Ideal) x0 x1 x2 x3 x4 x5 x6 x7 (ix2 r j) = val_main_v55 (F := Ideal) x0 x1 x2 x3 x4 x5 x6 x7 (ix1 j) := by
  rw [val_main_v64_apply, val_main_v63_apply]
  exact congrArg _ (funext fun a => Fin.ext (by match a with | ⟨0, _⟩ => rfl))

/-- The column sums of the squared deviations from the mean, divided by the row count: the two-pass variance. -/
theorem v62_at (j : Fin 128) :
    val_main_v62 (F := Ideal) x0 x1 x2 x3 x4 x5 x6 x7 (ix1 j) = varTwoPass (cur (val_main_v52 (F := Ideal) x0 x1 x2 x3 x4 x5 x6 x7)) j := by
  rw [val_main_v62_apply, val_main_v60_apply, val_main_v61_apply, val_main_cst_10_apply, val_main_cst_9_apply]
  have e : ∀ k : Fin 100000, idx_main_v60 (ix1 j) k = ix2 k j := fun k =>
    funext fun a => Fin.ext (by match a with | ⟨0, _⟩ => rfl | ⟨1, _⟩ => rfl)
  simp only [e, val_main_v59_apply, val_main_v58_apply, v57_at, v55_at, Ideal.hostDivf_def,
    Ideal.ofBits_def, Ideal.ofBits_zero_f32, zero_add, Ideal.mulf_def, Ideal.subf_def]
  rfl

/-- The reciprocal square root of the variance plus epsilon. -/
theorem v68_at (j : Fin 128) :
    val_main_v68 (F := Ideal) x0 x1 x2 x3 x4 x5 x6 x7 (ix1 j) =
      Ideal.rsqrt (varTwoPass (cur (val_main_v52 (F := Ideal) x0 x1 x2 x3 x4 x5 x6 x7)) j + eps) := by
  rw [val_main_v68_apply, val_main_v67_apply, val_main_v66_apply, val_main_cst_11_apply, v62_at]
  simp only [Ideal.hostUnary_rsqrt_def, Ideal.addf_def, Ideal.ofBits_def]
  rfl

/-- That factor laid out over all rows. -/
theorem v70_at (r : Fin 100000) (j : Fin 128) :
    val_main_v70 (F := Ideal) x0 x1 x2 x3 x4 x5 x6 x7 (ix2 r j) = val_main_v68 (F := Ideal) x0 x1 x2 x3 x4 x5 x6 x7 (ix1 j) := by
  rw [val_main_v70_apply, val_main_v69_apply]
  exact congrArg _ (funext fun a => Fin.ext (by match a with | ⟨0, _⟩ => rfl))

/-- The scale laid out over all rows. -/
theorem v73_at (r : Fin 100000) (j : Fin 128) :
    val_main_v73 (F := Ideal) x8 (ix2 r j) = row x8 j := by
  rw [val_main_v73_apply, val_main_v72_apply]
  exact congrArg _ (funext fun a => Fin.ext (by match a with | ⟨0, _⟩ => rfl))

/-- The shift laid out over all rows. -/
theorem v76_at (r : Fin 100000) (j : Fin 128) :
    val_main_v76 (F := Ideal) x9 (ix2 r j) = row x9 j := by
  rw [val_main_v76_apply, val_main_v75_apply]
  exact congrArg _ (funext fun a => Fin.ext (by match a with | ⟨0, _⟩ => rfl))

/-- Normalisation with the batch statistics, scale, shift and the maximum with the literal zero:
    the second layer's output through `bnRelu` with its own column means and two-pass variance. -/
theorem v78_at (r : Fin 100000) (j : Fin 128) :
    val_main_v78 (F := Ideal) x0 x1 x2 x3 x4 x5 x6 x7 x8 x9 (ix2 r j) =
      bnRelu (cur (val_main_v52 (F := Ideal) x0 x1 x2 x3 x4 x5 x6 x7)) (colMean (cur (val_main_v52 (F := Ideal) x0 x1 x2 x3 x4 x5 x6 x7)))
        (varTwoPass (cur (val_main_v52 (F := Ideal) x0 x1 x2 x3 x4 x5 x6 x7))) (row x8) (row x9) r j := by
  rw [val_main_v78_apply, val_main_v77_apply, val_main_v74_apply, val_main_v71_apply, val_main_v65_apply,
    val_main_call1_v0_apply, val_main_call1_cst_apply]
  rw [v64_at, v70_at, v73_at, v76_at, v55_at, v68_at]
  simp only [Ideal.maximumf_def, Ideal.addf_def, Ideal.mulf_def, Ideal.subf_def, Ideal.ofBits_def, Ideal.ofBits_zero_f32]
  rfl

theorem v78_eq :
    val_main_v78 (F := Ideal) x0 x1 x2 x3 x4 x5 x6 x7 x8 x9 =
      arr (bnRelu (cur (val_main_v52 (F := Ideal) x0 x1 x2 x3 x4 x5 x6 x7)) (colMean (cur (val_main_v52 (F := Ideal) x0 x1 x2 x3 x4 x5 x6 x7)))
        (varTwoPass (cur (val_main_v52 (F := Ideal) x0 x1 x2 x3 x4 x5 x6 x7))) (row x8) (row x9)) :=
  ext_ix2 fun r j => v78_at x0 x1 x2 x3 x4 x5 x6 x7 x8 x9 r j

/-- The last linear map (no bias) and the final maximum with the literal zero, over the second normalised layer
    kept as one matrix. -/
theorem v81_at (r : Fin 100000) (j : Fin 128) :
    val_main_v81 (F := Ideal) x0 x1 x2 x3 x4 x5 x6 x7 x8 x9 x10 (ix2 r j) =
      max (∑ k : Fin 128, cur (val_main_v78 (F := Ideal) x0 x1 x2 x3 x4 x5 x6 x7 x8 x9) r k * cur x10 j k) 0 := by
  rw [val_main_v81_apply, val_main_v80_apply, val_main_call2_v0_apply, val_main_call2_cst_apply]
  have el : ∀ k : Fin 128, lidx_main_v80 (ix2 r j) k = ix2 r k := fun k =>
    funext fun a => Fin.ext (by match a with | ⟨0, _⟩ => rfl | ⟨1, _⟩ => rfl)
  have er : ∀ k : Fin 128, idx_main_v79 (ridx_main_v80 (ix2 r j) k) = ix2 j k := fun k =>
    funext fun a => Fin.ext (by match a with | ⟨0, _⟩ => rfl | ⟨1, _⟩ => rfl)
  simp only [val_main_v79_apply, el, er, Ideal.maximumf_def, Ideal.ofBits_def, Ideal.ofBits_zero_f32]
  rfl

/-- The first layer's output is `stage1`. -/
theorem H1_eq :
    cur (val_main_v21 (F := Ideal) x0 x1 x2 x3) =
      stage1 (cur x0) (cur (val_main_v13 (F := Ideal) x0 x1)) (cur x2) (row x3) := by
  rw [v21_eq, cur_arr]

/-- The first normalised layer, over `stage1`. -/
theorem R1_eq :
    cur (val_main_v47 (F := Ideal) x0 x1 x2 x3 x4 x5) =
      bnRelu (stage1 (cur x0) (cur (val_main_v13 (F := Ideal) x0 x1)) (cur x2) (row x3))
        (colMean (stage1 (cur x0) (cur (val_main_v13 (F := Ideal) x0 x1)) (cur x2) (row x3)))
        (varTwoPass (stage1 (cur x0) (cur (val_main_v13 (F := Ideal) x0 x1)) (cur x2) (row x3))) (row x4) (row x5) := by
  rw [v47_eq, cur_arr, H1_eq]

/-- The second layer's output is `stage2` of the first with the two-pass variance. -/
theorem H2_eq :
    cur (val_main_v52 (F := Ideal) x0 x1 x2 x3 x4 x5 x6 x7) =
      stage2 varTwoPass (stage1 (cur x0) (cur (val_main_v13 (F := Ideal) x0 x1)) (cur x2) (row x3))
        (row x4) (row x5) (cur x6) (row x7) := by
  funext r j
  show val_main_v52 (F := Ideal) x0 x1 x2 x3 x4 x5 x6 x7 (ix2 r j) = _
  rw [v52_at, R1_eq]
  rfl

/-- The second normalised layer, over `stage2`. -/
theorem R2_eq :
    cur (val_main_v78 (F := Ideal) x0 x1 x2 x3 x4 x5 x6 x7 x8 x9) =
      bnRelu (stage2 varTwoPass (stage1 (cur x0) (cur (val_main_v13 (F := Ideal) x0 x1)) (cur x2) (row x3)) (row x4) (row x5) (cur x6) (row x7))
        (colMean (stage2 varTwoPass (stage1 (cur x0) (cur (val_main_v13 (F := Ideal) x0 x1)) (cur x2) (row x3)) (row x4) (row x5) (cur x6) (row x7)))
        (varTwoPass (stage2 varTwoPass (stage1 (cur x0) (cur (val_main_v13 (F := Ideal) x0 x1)) (cur x2) (row x3)) (row x4) (row x5) (cur x6) (row x7)))
        (row x8) (row x9) := by
  rw [v78_eq, cur_arr, H2_eq]

/-- The reference program's result is the specification's network with the two-pass variance, the
    gather-and-scatter aggregate entering as one array. -/
theorem ref_value :
    val_main_v81 (F := Ideal) x0 x1 x2 x3 x4 x5 x6 x7 x8 x9 x10 =
      arr (net varTwoPass (cur x0) (cur (val_main_v13 (F := Ideal) x0 x1)) (cur x2) (row x3) (row x4) (row x5)
        (cur x6) (row x7) (row x8) (row x9) (cur x10)) := by
  refine ext_ix2 fun r j => ?_
  rw [v81_at, R2_eq]
  rfl

end Cert.Gin.Ref

end
-- ==== Proof.Algebra.lean ====
/-
  The one-pass and the two-pass forms of the batch variance agree on real inputs, and therefore the
  whole layer computes the same thing with either form when its inputs are real.

  On the extended reals the two forms differ (with an infinity present, `⊤ − ⊤ = ⊥`), so realness is
  carried through every stage: a linear layer of reals is real, a column mean of reals is real, the
  two-pass variance of a real column is a nonnegative real, so adding the positive epsilon gives a
  positive real whose reciprocal square root is real, and BatchNorm followed by ReLU of reals is real.

  The identity itself is the classical one: with `N` the number of rows, `S = Σ h` and `μ = S / N`,
  `Σ (h − μ)² = Σ h² − 2 μ S + N μ² = Σ h² − N μ²`, and dividing by `N` gives
  `(Σ (h − μ)²) / N = (Σ h²) / N − μ²`.
-/
import proofs.«113272_j71416716197907_2_alg».proof.Proof.Reals
import proofs.«113272_j71416716197907_2_alg».proof.Proof.Consts
import Mathlib.Tactic

noncomputable section

namespace Cert.Gin

open Idealize.ShloMosaic

/-- The variance identity over the reals, for any finite family of rows whose number is the nonzero
    real `N`: the mean of the squared deviations from the mean is the mean of the squares minus the
    square of the mean. -/
theorem real_var_identity {ι : Type*} [Fintype ι] (h : ι → ℝ) (N : ℝ) (hN : N ≠ 0)
    (hc : (Fintype.card ι : ℝ) = N) :
    (∑ i, (h i - (∑ i, h i) / N) * (h i - (∑ i, h i) / N)) / N
      = (∑ i, h i * h i) / N - ((∑ i, h i) / N) * ((∑ i, h i) / N) := by
  have e : ∀ m : ℝ, ∑ i, (h i - m) * (h i - m)
      = (∑ i, h i * h i) - 2 * m * (∑ i, h i) + N * (m * m) := by
    intro m
    have hexp : ∀ i, (h i - m) * (h i - m) = h i * h i - 2 * m * h i + m * m := fun i => by ring
    simp_rw [hexp]
    rw [Finset.sum_add_distrib, Finset.sum_sub_distrib, ← Finset.mul_sum, Finset.sum_const,
      Finset.card_univ, nsmul_eq_mul, hc]
  rw [e]
  field_simp
  ring

/-- The column mean of a real matrix, as a real. -/
theorem colMean_coe (H : Mat 100000 128) (h : Fin 100000 → Fin 128 → ℝ)
    (hh : ∀ r j, H r j = (h r j : EReal)) (j : Fin 128) :
    colMean H j = (((∑ r, h r j) / 100000 : ℝ) : EReal) := by
  unfold colMean
  simp only [hh]
  rw [← coe_finset_sum, cnt_eq, div_coe_coe _ _ (by norm_num)]

/-- The two-pass variance of a real matrix, as a real, for any real value `m` of the column mean. -/
theorem varTwoPass_coe (H : Mat 100000 128) (h : Fin 100000 → Fin 128 → ℝ)
    (hh : ∀ r j, H r j = (h r j : EReal)) (j : Fin 128) (m : ℝ) (hm : colMean H j = (m : EReal)) :
    varTwoPass H j = (((∑ r, (h r j - m) * (h r j - m)) / 100000 : ℝ) : EReal) := by
  unfold varTwoPass
  rw [hm]
  simp only [hh]
  simp only [← EReal.coe_sub, ← EReal.coe_mul, ← coe_finset_sum]
  rw [cnt_eq, div_coe_coe _ _ (by norm_num)]

/-- On a real matrix the one-pass variance equals the two-pass variance. -/
theorem var_onePass_eq_twoPass (H : Mat 100000 128) (hH : ∀ r j, IsR (H r j)) :
    varOnePass H = varTwoPass H := by
  choose h hh using hH
  funext j
  have hm := colMean_coe H h hh j
  rw [varTwoPass_coe H h hh j _ hm]
  unfold varOnePass
  rw [hm]
  simp only [hh]
  simp only [← EReal.coe_mul, ← coe_finset_sum]
  rw [cnt_eq, div_coe_coe _ _ (by norm_num), ← EReal.coe_sub]
  congr 1
  exact (real_var_identity (fun r => h r j) 100000 (by norm_num) (by simp)).symm

/-! ### Realness through the stages -/

/-- A linear layer of reals is real. -/
theorem isR_lin {H : Mat 100000 128} {W : Mat 128 128} {b : Row 128}
    (hH : ∀ r j, IsR (H r j)) (hW : ∀ j k, IsR (W j k)) (hb : ∀ j, IsR (b j)) :
    ∀ r j, IsR (lin H W b r j) :=
  fun r j => isR_add (isR_sum _ fun k => isR_mul (hH r k) (hW j k)) (hb j)

/-- The column mean of a real matrix is real. -/
theorem isR_colMean {H : Mat 100000 128} (hH : ∀ r j, IsR (H r j)) : ∀ j, IsR (colMean H j) := by
  intro j
  unfold colMean
  rw [cnt_eq]
  exact isR_div (isR_sum _ fun r => hH r j) _ (by norm_num)

/-- The two-pass variance of a real matrix is a nonnegative real: it is a mean of squares. -/
theorem varTwoPass_nonneg {H : Mat 100000 128} (hH : ∀ r j, IsR (H r j)) (j : Fin 128) :
    ∃ v : ℝ, 0 ≤ v ∧ varTwoPass H j = (v : EReal) := by
  obtain ⟨m, hm⟩ := isR_colMean hH j
  choose h hh using hH
  refine ⟨(∑ r, (h r j - m) * (h r j - m)) / 100000, ?_, varTwoPass_coe H h hh j m hm⟩
  exact div_nonneg (Finset.sum_nonneg fun r _ => mul_self_nonneg _) (by norm_num)

/-- BatchNorm with the batch mean and the two-pass variance, followed by ReLU, of reals is real:
    the variance plus epsilon is a positive real, so its reciprocal square root is real. -/
theorem isR_bnRelu_twoPass {H : Mat 100000 128} {g be : Row 128}
    (hH : ∀ r j, IsR (H r j)) (hg : ∀ j, IsR (g j)) (hbe : ∀ j, IsR (be j)) :
    ∀ r j, IsR (bnRelu H (colMean H) (varTwoPass H) g be r j) := by
  intro r j
  unfold bnRelu
  obtain ⟨v, hv0, hv⟩ := varTwoPass_nonneg hH j
  obtain ⟨e, he0, he⟩ := eps_pos
  have hr : IsR (Ideal.rsqrt (varTwoPass H j + eps)) := by
    rw [hv, he, ← EReal.coe_add]
    exact isR_rsqrt_pos _ (by linarith)
  exact isR_max
    (isR_add (isR_mul (isR_mul (isR_sub (hH r j) (isR_colMean hH j)) hr) (hg j)) (hbe j)) isR_zero

/-- With real inputs the layer is the same whichever form of the variance it uses: the first linear
    layer is real, so the two variances of its output agree; hence the second layer's outputs agree
    and are real, so the two variances of that output agree too. -/
theorem net_onePass_eq_twoPass (x agg : Mat 100000 128) (W1 : Mat 128 128) (b1 g1 be1 : Row 128)
    (W2 : Mat 128 128) (b2 g2 be2 : Row 128) (W3 : Mat 128 128)
    (hx : ∀ r j, IsR (x r j)) (hagg : ∀ r j, IsR (agg r j)) (hW1 : ∀ j k, IsR (W1 j k))
    (hb1 : ∀ j, IsR (b1 j)) (hg1 : ∀ j, IsR (g1 j)) (hbe1 : ∀ j, IsR (be1 j))
    (hW2 : ∀ j k, IsR (W2 j k)) (hb2 : ∀ j, IsR (b2 j)) (hg2 : ∀ j, IsR (g2 j))
    (hbe2 : ∀ j, IsR (be2 j)) :
    net varOnePass x agg W1 b1 g1 be1 W2 b2 g2 be2 W3
      = net varTwoPass x agg W1 b1 g1 be1 W2 b2 g2 be2 W3 := by
  have h1 : ∀ r j, IsR (stage1 x agg W1 b1 r j) :=
    isR_lin (fun r j => isR_add (hx r j) (hagg r j)) hW1 hb1
  have e1 : varOnePass (stage1 x agg W1 b1) = varTwoPass (stage1 x agg W1 b1) :=
    var_onePass_eq_twoPass _ h1
  have s2 : stage2 varOnePass (stage1 x agg W1 b1) g1 be1 W2 b2
      = stage2 varTwoPass (stage1 x agg W1 b1) g1 be1 W2 b2 := by
    unfold stage2
    rw [e1]
  have h2 : ∀ r j, IsR (stage2 varTwoPass (stage1 x agg W1 b1) g1 be1 W2 b2 r j) :=
    isR_lin (isR_bnRelu_twoPass h1 hg1 hbe1) hW2 hb2
  have e2 : varOnePass (stage2 varTwoPass (stage1 x agg W1 b1) g1 be1 W2 b2)
      = varTwoPass (stage2 varTwoPass (stage1 x agg W1 b1) g1 be1 W2 b2) :=
    var_onePass_eq_twoPass _ h2
  unfold net
  rw [s2]
  unfold stage3
  rw [e2]

end Cert.Gin

end
-- ==== Proof.lean ====
/-
  The certificate.  Two programs compute a graph-isomorphism layer on 100000 nodes with 128 features:
  neighbour aggregation (a gather and a scatter-add, the same in both), then Linear → BatchNorm → ReLU twice and a
  last Linear → ReLU, BatchNorm using the batch statistics with the biased variance.

  The kernel program runs the three linear layers as three tiled kernel regions (25 blocks of 4000 rows), gathers
  per-block column sums and sums of squares, and finishes the statistics on the host as  E[h²] − E[h]².  The reference
  computes the variance as  E[(h − E[h])²].  On the extended reals the two agree exactly when no infinity occurs,
  which the precondition (every float input finite) guarantees: finite inputs give real aggregates, real linear
  outputs, nonnegative real variances, hence real normalised values, layer after layer.  Everything else — tiling,
  rounding to a narrower format on the way into a matrix product, the order of the sums — is invisible at the ideal
  instance.

  The frames of the two kernel programs are the generated frame certificates; the reference's frame is its generated
  run with the result dropped; the idealization rewrote no operation, so `preserves` is trivial.
-/
import proofs.«113272_j71416716197907_2_alg».proof.Defs
import proofs.«113272_j71416716197907_2_alg».proof.Proof.Gen.Kernel
import proofs.«113272_j71416716197907_2_alg».proof.Proof.Gen.Kernel.Skeleton
import proofs.«113272_j71416716197907_2_alg».proof.Proof.Gen.Kernel.Launch
import proofs.«113272_j71416716197907_2_alg».proof.Proof.Gen.Kernel.Points
import proofs.«113272_j71416716197907_2_alg».proof.Proof.Gen.Kernel.Frame
import proofs.«113272_j71416716197907_2_alg».proof.Proof.Gen.KernelIdeal
import proofs.«113272_j71416716197907_2_alg».proof.Proof.Gen.KernelIdeal.Skeleton
import proofs.«113272_j71416716197907_2_alg».proof.Proof.Gen.KernelIdeal.Launch
import proofs.«113272_j71416716197907_2_alg».proof.Proof.Gen.KernelIdeal.Points
import proofs.«113272_j71416716197907_2_alg».proof.Proof.Gen.KernelIdeal.Frame
import proofs.«113272_j71416716197907_2_alg».proof.Proof.Gen.ReferenceIdeal
import proofs.«113272_j71416716197907_2_alg».proof.Proof.Gen.Pre_finite_inputs
import proofs.«113272_j71416716197907_2_alg».proof.Proof.Gen.ReferenceIdeal.Run
import proofs.«113272_j71416716197907_2_alg».proof.Proof.Gen.ReferenceIdeal.Read
import proofs.«113272_j71416716197907_2_alg».proof.Proof.KRun
import proofs.«113272_j71416716197907_2_alg».proof.Proof.KValue
import proofs.«113272_j71416716197907_2_alg».proof.Proof.KBridge
import proofs.«113272_j71416716197907_2_alg».proof.Proof.RefValue
import proofs.«113272_j71416716197907_2_alg».proof.Proof.Algebra
import proofs.«113272_j71416716197907_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Cert.Gin

/-- Both programs form the aggregate by the same gather and scatter-add over the same index arrays. -/
theorem agg_same (x : FVec Ideal Cert.KernelIdeal.S100000x128 .f32) (ei : IVec Cert.KernelIdeal.S2x1600000 32) :
    Cert.ReferenceIdeal.Read.val_main_v13 (F := Ideal) x ei = Cert.Gin.Fin.aggK x ei := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance the kernel program's result is the layer with the one-pass variance (the value of its run)
    and the reference's is the layer with the two-pass variance, of arguments that agree; with finite inputs the two
    variances coincide. -/
theorem algebraic : Cert.algebraic_KernelIdeal_ReferenceIdeal := by
  intro m ρ m' ρ' hpre hagree
  refine ⟨fun c => KBridge.kernelOut (m ((c.tc : Thread Cert.KernelIdeal.nD Cert.KernelIdeal.τ).loc Cert.KernelIdeal.main_arg0)) (Cert.Gin.Fin.aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (KValue.value m ρ c), (h c).2⟩)
      (Cert.KernelIdeal.GenValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    obtain ⟨r0, r2, r3, r4, r5, r6, r7, r8, r9, r10⟩ := Cert.Gin.Fin.real_of_pre m hpre c
    rw [Cert.ReferenceIdeal.Read.val_main_v81_eq, a0, a1, a2, a3, a4, a5, a6, a7, a8, a9, a10, Cert.Gin.Ref.ref_value,
      agg_same]
    exact (congrArg arr (net_onePass_eq_twoPass _ _ _ _ _ _ _ _ _ _ _
      (fun r j => r0 _) (fun r j => Cert.Gin.Fin.agg_real _ _ r0 _) (fun j k => r2 _) (fun j => r3 _) (fun j => r4 _) (fun j => r5 _)
      (fun j k => r6 _) (fun j => r7 _) (fun j => r8 _) (fun j => r9 _)).symm).trans
      (KBridge.kernelOut_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
